-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S_ : Shape := ⟨0, ![]⟩

class Facts : Prop where
  bcast_S_S128x128x100 : S_.BroadcastsInDim S128x128x100 (![] : Fin 0 → Fin S128x128x100.rank)
  reducesTo_S128x128x100_S_d0_1_2 : S128x128x100.ReducesTo [0, 1, 2] S_
  h_S_ : 0 < S_.numel
  bcast_S_S128x32x32 : S_.BroadcastsInDim S128x32x32 (![] : Fin 0 → Fin S128x32x32.rank)
  reducesTo_S128x32x32_S_d0_1_2 : S128x32x32.ReducesTo [0, 1, 2] S_
  bcast_S_S400x1024 : S_.BroadcastsInDim S400x1024 (![] : Fin 0 → Fin S400x1024.rank)
  reducesTo_S400x1024_S_d0_1 : S400x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S800x1024 : S_.BroadcastsInDim S800x1024 (![] : Fin 0 → Fin S800x1024.rank)
  reducesTo_S800x1024_S_d0_1 : S800x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1 .f32) (main_arg13 : FVec F S1 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S800x1024 .f32 := Host.absf main_arg8
  let main_cst_14 : FVec F S_ .f32 := constant S_ .f32 0x7F800000#32
  let main_v40 : FVec F S800x1024 .f32 := broadcastInDim S800x1024 ![] bcast_S_S800x1024 main_cst_14
  let main_v41 : IVec S800x1024 1 := cmpf .olt main_v39 main_v40
  let main_c_15 : IVec S_ 1 := constantI S_ 1 1#1
  let main_v42 : IVec S_ 1 := (fun x v => Host.reduce IntOp.andi x v reducesTo_S800x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1 .f32) (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x128x100 .f32) (main_arg1 : FVec F S128x32x32 .f32) (main_arg2 : FVec F S400x1024 .f32) (main_arg3 : FVec F S1024 .f32) (main_arg4 : FVec F S1024x1024 .f32) (main_arg5 : FVec F S1024 .f32) (main_arg6 : FVec F S1024x1 .f32) (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) : IVec S_ 1 :=
  let main_v0 : FVec F S128x128x100 .f32 := Host.absf main_arg0
  let main_cst : FVec F S_ .f32 := constant S_ .f32 0x7F800000#32
  let main_v1 : FVec F S128x128x100 .f32 := broadcastInDim S128x128x100 ![] bcast_S_S128x128x100 main_cst
  let main_v2 : IVec S128x128x100 1 := cmpf .olt main_v0 main_v1
  let main_c : IVec S_ 1 := constantI S_ 1 1#1
  let main_v3 : IVec S_ 1 := (fun x v => Host.reduce IntOp.andi x v reducesTo_S128x128x100_S_d0_1_2 h_S_) main_v2 main_c
  let main_v4 : FVec F S128x32x32 .f32 := Host.absf main_arg1
  let main_cst_0 : FVec F S_ .f32 := constant S_ .f32 0x7F800000#32
  let main_v5 : FVec F S128x32x32 .f32 := broadcastInDim S128x32x32 ![] bcast_S_S128x32x32 main_cst_0
  let main_v6 : IVec S128x32x32 1 := cmpf .olt main_v4 main_v5
  let main_c_1 : IVec S_ 1 := constantI S_ 1 1#1
  let main_v7 : IVec S_ 1 := (fun x v => Host.reduce IntOp.andi x v reducesTo_S128x32x32_S_d0_1_2 h_S_) main_v6 main_c_1
  let main_v8 : IVec S_ 1 := andi main_v3 main_v7
  let main_v9 : FVec F S400x1024 .f32 := Host.absf main_arg2
  let main_cst_2 : FVec F S_ .f32 := constant S_ .f32 0x7F800000#32
  let main_v10 : FVec F S400x1024 .f32 := broadcastInDim S400x1024 ![] bcast_S_S400x1024 main_cst_2
  let main_v11 : IVec S400x1024 1 := cmpf .olt main_v9 main_v10
  let main_c_3 : IVec S_ 1 := constantI S_ 1 1#1
  let main_v12 : IVec S_ 1 := (fun x v => Host.reduce IntOp.andi x v reducesTo_S400x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S128x32x400 : Shape := ⟨3, ![128, 32, 400]⟩
abbrev S4096x400 : Shape := ⟨2, ![4096, 400]⟩
abbrev S1x1024 : Shape := ⟨2, ![1, 1024]⟩
abbrev S1x1 : Shape := ⟨2, ![1, 1]⟩
abbrev S4096x1 : Shape := ⟨2, ![4096, 1]⟩
abbrev S4096x1024 : Shape := ⟨2, ![4096, 1024]⟩
abbrev S512x400 : Shape := ⟨2, ![512, 400]⟩
abbrev S512x1 : Shape := ⟨2, ![512, 1]⟩
abbrev S512x1024 : Shape := ⟨2, ![512, 1024]⟩
abbrev S512 : Shape := ⟨1, ![512]⟩
abbrev S128x32 : Shape := ⟨2, ![128, 32]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S128x32x1024 : Shape := ⟨3, ![128, 32, 1024]⟩
abbrev S1x32x1024 : Shape := ⟨3, ![1, 32, 1024]⟩
abbrev S1x32x32 : Shape := ⟨3, ![1, 32, 32]⟩
abbrev S1x1x1 : Shape := ⟨3, ![1, 1, 1]⟩
abbrev S32x32 : Shape := ⟨2, ![32, 32]⟩
abbrev S1x32x256 : Shape := ⟨3, ![1, 32, 256]⟩
abbrev S32x256 : Shape := ⟨2, ![32, 256]⟩
abbrev S1x256 : Shape := ⟨2, ![1, 256]⟩
abbrev S32x1x256 : Shape := ⟨3, ![32, 1, 256]⟩
abbrev S32x32x256 : Shape := ⟨3, ![32, 32, 256]⟩
abbrev S1x1x256 : Shape := ⟨3, ![1, 1, 256]⟩
abbrev S1024x256 : Shape := ⟨2, ![1024, 256]⟩
abbrev S256x1024 : Shape := ⟨2, ![256, 1024]⟩
abbrev S32x32x1024 : Shape := ⟨3, ![32, 32, 1024]⟩
abbrev S1x1x1024 : Shape := ⟨3, ![1, 1, 1024]⟩
abbrev S32 : Shape := ⟨1, ![32]⟩
abbrev S32x1 : Shape := ⟨2, ![32, 1]⟩

abbrev nBuf : Space → Nat
  | .hbm => 43
  | .vmem => 32
  | .smem => 0
  | _ => 0

abbrev bufTy : (tb : Table) → Fin (tcTables nBuf tb) → BufTy
  | .hbm, ⟨0, _⟩ => ⟨S128x128x100, .f32⟩
  | .hbm, ⟨1, _⟩ => ⟨S128x32x32, .f32⟩
  | .hbm, ⟨2, _⟩ => ⟨S400x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S800x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S128x32x400, .f32⟩
  | .hbm, ⟨15, _⟩ => ⟨S4096x400, .f32⟩
  | .hbm, ⟨16, _⟩ => ⟨S400x1024, .bf16⟩
  | .hbm, ⟨17, _⟩ => ⟨S1024x1024, .bf16⟩
  | .hbm, ⟨18, _⟩ => ⟨S400x1024, .f32⟩
  | .hbm, ⟨19, _⟩ => ⟨S400x1024, .bf16⟩
  | .hbm, ⟨20, _⟩ => ⟨S400x1024, .f32⟩
  | .hbm, ⟨21, _⟩ => ⟨S400x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S128x32, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S128x1x1, .f32⟩
  | .hbm, ⟨39, _⟩ => ⟨S128x32x1024, .f32⟩
  | .hbm, ⟨40, _⟩ => ⟨S128x32x1024, .f32⟩
  | .hbm, ⟨41, _⟩ => ⟨S128x1x1, .f32⟩
  | .hbm, ⟨42, _⟩ => ⟨S128x1, .f32⟩
  | .local _ .vmem, ⟨0, _⟩ => ⟨S512x400, .f32⟩
  | .local _ .vmem, ⟨1, _⟩ => ⟨S512x400, .f32⟩
  | .local _ .vmem, ⟨2, _⟩ => ⟨S400x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1, .f32⟩
  | .local _ .vmem, ⟨8, _⟩ => ⟨S400x1024, .bf16⟩
  | .local _ .vmem, ⟨9, _⟩ => ⟨S400x1024, .bf16⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x32, .f32⟩
  | .local _ .vmem, ⟨21, _⟩ => ⟨S1x32x32, .f32⟩
  | .local _ .vmem, ⟨22, _⟩ => ⟨S1x1x1, .f32⟩
  | .local _ .vmem, ⟨23, _⟩ => ⟨S1x1x1, .f32⟩
  | .local _ .vmem, ⟨24, _⟩ => ⟨S1x1024, .f32⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S1x1, .f32⟩
  | .local _ .vmem, ⟨29, _⟩ => ⟨S1x1x1, .f32⟩
  | .local _ .vmem, ⟨30, _⟩ => ⟨S1x1x1, .f32⟩
  | .local _ .vmem, ⟨31, _⟩ => ⟨S1024x1024, .f32⟩
  | _, _ => ⟨S128x128x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128x128x100_S128x32x400 : S128x128x100.ShapeCasts S128x32x400
  shapeCasts_S128x32x400_S4096x400 : S128x32x400.ShapeCasts S4096x400
  bitsLt_bf16_f32 : FTy.bits .bf16 < FTy.bits .f32
  slices_S800x1024_S400x1024_0_0 : S800x1024.Slices ![0, 0] S400x1024
  slices_S800x1024_S400x1024_400_0 : S800x1024.Slices ![400, 0] S400x1024
  shapeCasts_S1024_S1x1024 : S1024.ShapeCasts S1x1024
  shapeCasts_S1024x1_S1x1024 : S1024x1.ShapeCasts S1x1024
  shapeCasts_S1_S1x1 : S1.ShapeCasts S1x1
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  inb_S512x1024_S512x1024_0_0 : ∀ a, (![0, 0] : Fin 2 → Nat) a + S512x1024.size a ≤ S512x1024.size a
  h_S512x1024 : 0 < S512x1024.numel
  shapeCasts_S4096x1_S128x32 : S4096x1.ShapeCasts S128x32
  reducesTo_S128x32_S128_d1 : S128x32.ReducesTo [1] S128
  h_S_ : 0 < S_.numel
  bcast_S128_S128x1_0 : S128.BroadcastsInDim S128x1 (![0] : Fin 1 → Fin S128x1.rank)
  shapeCasts_S128x1_S128x1x1 : S128x1.ShapeCasts S128x1x1
  shapeCasts_S4096x1024_S128x32x1024 : S4096x1024.ShapeCasts S128x32x1024
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  inb_S1x32x1024_S1x32x256_0_0_0 : ∀ a, (![0, 0, 0] : Fin 3 → Nat) a + S1x32x256.size a ≤ S1x32x1024.size a
  h_S1x32x256 : 0 < S1x32x256.numel
  shapeCasts_S1x32x256_S32x256 : S1x32x256.ShapeCasts S32x256
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  shapeCasts_S32x256_S32x1x256 : S32x256.ShapeCasts S32x1x256
  shapeCasts_S32x256_S1x32x256 : S32x256.ShapeCasts S1x32x256
  broadcasts_S32x1x256_S32x32x256 : S32x1x256.Broadcasts S32x32x256
  broadcasts_S1x32x256_S32x32x256 : S1x32x256.Broadcasts S32x32x256
  shapeCasts_S1x256_S1x1x256 : S1x256.ShapeCasts S1x1x256
  broadcasts_S1x1x256_S32x32x256 : S1x1x256.Broadcasts S32x32x256
  shapeCasts_S32x32x256_S1024x256 : S32x32x256.ShapeCasts S1024x256
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  inb_S1x32x1024_S1x32x256_0_0_256 : ∀ a, (![0, 0, 256] : Fin 3 → Nat) a + S1x32x256.size a ≤ S1x32x1024.size a
  inb_S1x1024_S1x256_0_256 : ∀ a, (![0, 256] : Fin 2 → Nat) a + S1x256.size a ≤ S1x1024.size a
  inb_S1024x1024_S256x1024_256_0 : ∀ a, (![256, 0] : Fin 2 → Nat) a + S256x1024.size a ≤ S1024x1024.size a
  inb_S1x32x1024_S1x32x256_0_0_512 : ∀ a, (![0, 0, 512] : Fin 3 → Nat) a + S1x32x256.size a ≤ S1x32x1024.size a
  inb_S1x1024_S1x256_0_512 : ∀ a, (![0, 512] : Fin 2 → Nat) a + S1x256.size a ≤ S1x1024.size a
  inb_S1024x1024_S256x1024_512_0 : ∀ a, (![512, 0] : Fin 2 → Nat) a + S256x1024.size a ≤ S1024x1024.size a
  inb_S1x32x1024_S1x32x256_0_0_768 : ∀ a, (![0, 0, 768] : Fin 3 → Nat) a + S1x32x256.size a ≤ S1x32x1024.size a
  inb_S1x1024_S1x256_0_768 : ∀ a, (![0, 768] : Fin 2 → Nat) a + S1x256.size a ≤ S1x1024.size a
  inb_S1024x1024_S256x1024_768_0 : ∀ a, (![768, 0] : Fin 2 → Nat) a + S256x1024.size a ≤ S1024x1024.size a
  broadcasts_S1x1024_S1024x1024 : S1x1024.Broadcasts S1024x1024
  shapeCasts_S1024x1024_S32x32x1024 : S1024x1024.ShapeCasts S32x32x1024
  shapeCasts_S1x1024_S1x1x1024 : S1x1024.ShapeCasts S1x1x1024
  broadcasts_S1x1x1024_S32x32x1024 : S1x1x1024.Broadcasts S32x32x1024
  reduces_S32x32x1024_S32x32 : S32x32x1024.Reduces [2] S32x32
  broadcasts_S1x1_S32x32 : S1x1.Broadcasts S32x32
  reduces_S32x32_S32 : S32x32.Reduces [1] S32
  shapeCasts_S32_S32x1 : S32.ShapeCasts S32x1
  reduces_S32x1_S1 : S32x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S128x1x1_S128x1 : S128x1x1.ShapeCasts S128x1
  dot_S512x400_S400x1024_S512x1024_1_0_0_1_n_n_wf : DotDims.WF S512x400 S400x1024 S512x1024 [1] [0] [0] [1] [] []
  dot_S512x1024_S1024x1024_S512x1024_1_0_0_1_n_n_wf : DotDims.WF S512x1024 S1024x1024 S512x1024 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x400.size a ≤ S4096x400.size a
  hwx0_0 : ∀ i : grid0.Coords, EltTy.bits .f32 = 32 ∨ (Rect.block (s := S4096x400) S512x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x1024.size a ≤ S400x1024.size a
  hwx0_1 : ∀ i : grid0.Coords, EltTy.bits .bf16 = 32 ∨ (Rect.block (s := S400x1024) S400x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400x1024.size a ≤ S400x1024.size a
  hwx0_7 : ∀ i : grid0.Coords, EltTy.bits .bf16 = 32 ∨ (Rect.block (s := S400x1024) S400x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x1024.size a ≤ S400x1024.size a
  hwx0_8 : ∀ i : grid0.Coords, EltTy.bits .bf16 = 32 ∨ (Rect.block (s := S400x1024) S400x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S4096x1.size a
  hwx0_9 : ∀ i : grid0.Coords, EltTy.bits .f32 = 32 ∨ (Rect.block (s := S4096x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S4096x1024.size a
  hwx0_10 : ∀ i : grid0.Coords, EltTy.bits .f32 = 32 ∨ (Rect.block (s := S4096x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S4096x1024.size a
  hwx0_11 : ∀ i : grid0.Coords, EltTy.bits .f32 = 32 ∨ (Rect.block (s := S4096x1024) S512x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x1024.size a ≤ S128x32x1024.size a
  hwx1_0 : ∀ i : grid1.Coords, EltTy.bits .f32 = 32 ∨ (Rect.block (s := S128x32x1024) S1x32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x1024.size a ≤ S128x32x1024.size a
  hwx1_1 : ∀ i : grid1.Coords, EltTy.bits .f32 = 32 ∨ (Rect.block (s := S128x32x1024) S1x32x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x32.size a ≤ S128x32x32.size a
  hwx1_2 : ∀ i : grid1.Coords, EltTy.bits .f32 = 32 ∨ (Rect.block (s := S128x32x32) S1x32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S128x1x1.size a
  hwx1_3 : ∀ i : grid1.Coords, EltTy.bits .f32 = 32 ∨ (Rect.block (s := S128x1x1) S1x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1.size a ≤ S128x1x1.size a
  hwx1_9 : ∀ i : grid1.Coords, EltTy.bits .f32 = 32 ∨ (Rect.block (s := S128x1x1) S1x1x1.size (cc1_transform_9 i) (hinb1_9 i)).WholeWords (EltTy.packing .f32)

variable [Facts₀]

def dot_S512x400_S400x1024_S512x1024_1_0_0_1_n_n : DotDims S512x400 S400x1024 S512x1024 where
  lhsContracting := [1]
  rhsContracting := [0]
  lhsNonContracting := [0]
  rhsNonContracting := [1]
  lhsBatch := []
  rhsBatch := []
  wf := dot_S512x400_S400x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v1) S512x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S400x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S400x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S400x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17_0) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v22) S1x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x32x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x1x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S128x32x4x100 : Shape := ⟨4, ![128, 32, 4, 100]⟩
abbrev S4096x400 : Shape := ⟨2, ![4096, 400]⟩
abbrev S4096x1024 : Shape := ⟨2, ![4096, 1024]⟩
abbrev S1x1024 : Shape := ⟨2, ![1, 1024]⟩
abbrev S_ : Shape := ⟨0, ![]⟩
abbrev S4096x1 : Shape := ⟨2, ![4096, 1]⟩
abbrev S1x1 : Shape := ⟨2, ![1, 1]⟩
abbrev S128x32 : Shape := ⟨2, ![128, 32]⟩
abbrev S128 : Shape := ⟨1, ![128]⟩
abbrev S128x1 : Shape := ⟨2, ![128, 1]⟩
abbrev S128x32x1x4x100 : Shape := ⟨5, ![128, 32, 1, 4, 100]⟩
abbrev S128x32x32x4x100 : Shape := ⟨5, ![128, 32, 32, 4, 100]⟩
abbrev S128x1x32x4x100 : Shape := ⟨5, ![128, 1, 32, 4, 100]⟩
abbrev S128x32x32x8x100 : Shape := ⟨5, ![128, 32, 32, 8, 100]⟩
abbrev S131072x800 : Shape := ⟨2, ![131072, 800]⟩
abbrev S131072x1024 : Shape := ⟨2, ![131072, 1024]⟩
abbrev S131072x1 : Shape := ⟨2, ![131072, 1]⟩

abbrev nBuf : Space → Nat
  | .hbm => 68
  | .vmem => 0
  | .smem => 0
  | _ => 0

abbrev bufTy : (tb : Table) → Fin (tcTables nBuf tb) → BufTy
  | .hbm, ⟨0, _⟩ => ⟨S128x128x100, .f32⟩
  | .hbm, ⟨1, _⟩ => ⟨S128x32x32, .f32⟩
  | .hbm, ⟨2, _⟩ => ⟨S400x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S800x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S128x32x4x100, .f32⟩
  | .hbm, ⟨15, _⟩ => ⟨S4096x400, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1, .f32⟩
  | .hbm, ⟨31, _⟩ => ⟨S1x1, .f32⟩
  | .hbm, ⟨32, _⟩ => ⟨S4096x1, .f32⟩
  | .hbm, ⟨33, _⟩ => ⟨S4096x1, .f32⟩
  | .hbm, ⟨34, _⟩ => ⟨S128x32, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S128x32x1x4x100, .f32⟩
  | .hbm, ⟨39, _⟩ => ⟨S128x32x32x4x100, .f32⟩
  | .hbm, ⟨40, _⟩ => ⟨S128x1x32x4x100, .f32⟩
  | .hbm, ⟨41, _⟩ => ⟨S128x32x32x4x100, .f32⟩
  | .hbm, ⟨42, _⟩ => ⟨S128x32x32x8x100, .f32⟩
  | .hbm, ⟨43, _⟩ => ⟨S131072x800, .f32⟩
  | .hbm, ⟨44, _⟩ => ⟨S131072x1024, .f32⟩
  | .hbm, ⟨45, _⟩ => ⟨S1x1024, .f32⟩
  | .hbm, ⟨46, _⟩ => ⟨S131072x1024, .f32⟩
  | .hbm, ⟨47, _⟩ => ⟨S131072x1024, .f32⟩
  | .hbm, ⟨48, _⟩ => ⟨S_, .f32⟩
  | .hbm, ⟨49, _⟩ => ⟨S131072x1024, .f32⟩
  | .hbm, ⟨50, _⟩ => ⟨S131072x1024, .f32⟩
  | .hbm, ⟨51, _⟩ => ⟨S131072x1024, .f32⟩
  | .hbm, ⟨52, _⟩ => ⟨S1x1024, .f32⟩
  | .hbm, ⟨53, _⟩ => ⟨S131072x1024, .f32⟩
  | .hbm, ⟨54, _⟩ => ⟨S131072x1024, .f32⟩
  | .hbm, ⟨55, _⟩ => ⟨S_, .f32⟩
  | .hbm, ⟨56, _⟩ => ⟨S131072x1024, .f32⟩
  | .hbm, ⟨57, _⟩ => ⟨S131072x1024, .f32⟩
  | .hbm, ⟨58, _⟩ => ⟨S131072x1, .f32⟩
  | .hbm, ⟨59, _⟩ => ⟨S1x1, .f32⟩
  | .hbm, ⟨60, _⟩ => ⟨S131072x1, .f32⟩
  | .hbm, ⟨61, _⟩ => ⟨S131072x1, .f32⟩
  | .hbm, ⟨62, _⟩ => ⟨S128x32x32, .f32⟩
  | .hbm, ⟨63, _⟩ => ⟨S128x32x32, .f32⟩
  | .hbm, ⟨64, _⟩ => ⟨S_, .f32⟩
  | .hbm, ⟨65, _⟩ => ⟨S128, .f32⟩
  | .hbm, ⟨66, _⟩ => ⟨S128x1, .f32⟩
  | .hbm, ⟨67, _⟩ => ⟨S128x1, .f32⟩
  | _, _ => ⟨S128x128x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_cst : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call3_cst : Ref sig .tc := ⟨.hbm, 55, rfl⟩
abbrev main_call3_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  shapeCasts_S128x128x100_S128x32x4x100 : S128x128x100.ShapeCasts S128x32x4x100
  shapeCasts_S128x32x4x100_S4096x400 : S128x32x4x100.ShapeCasts S4096x400
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S128x32 : S4096x1.ShapeCasts S128x32
  reducesTo_S128x32_S128_d1 : S128x32.ReducesTo [1] S128
  h_S_ : 0 < S_.numel
  bcast_S128_S128x1_0 : S128.BroadcastsInDim S128x1 (![0] : Fin 1 → Fin S128x1.rank)
  bcast_S128x32x4x100_S128x32x1x4x100_0_1_3_4 : S128x32x4x100.BroadcastsInDim S128x32x1x4x100 (![0, 1, 3, 4] : Fin 4 → Fin S128x32x1x4x100.rank)
  bcast_S128x32x1x4x100_S128x32x32x4x100_0_1_2_3_4 : S128x32x1x4x100.BroadcastsInDim S128x32x32x4x100 (![0, 1, 2, 3, 4] : Fin 5 → Fin S128x32x32x4x100.rank)
  bcast_S128x32x4x100_S128x1x32x4x100_0_2_3_4 : S128x32x4x100.BroadcastsInDim S128x1x32x4x100 (![0, 2, 3, 4] : Fin 4 → Fin S128x1x32x4x100.rank)
  bcast_S128x1x32x4x100_S128x32x32x4x100_0_1_2_3_4 : S128x1x32x4x100.BroadcastsInDim S128x32x32x4x100 (![0, 1, 2, 3, 4] : Fin 5 → Fin S128x32x32x4x100.rank)
  concatenates_S128x32x32x4x100_S128x32x32x4x100_S128x32x32x8x100_d3 : Shape.Concatenates [S128x32x32x4x100, S128x32x32x4x100] S128x32x32x8x100 3
  shapeCasts_S128x32x32x8x100_S131072x800 : S128x32x32x8x100.ShapeCasts S131072x800
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S1x1_S131072x1_0_1 : S1x1.BroadcastsInDim S131072x1 (![0, 1] : Fin 2 → Fin S131072x1.rank)
  shapeCasts_S131072x1_S128x32x32 : S131072x1.ShapeCasts S128x32x32
  reducesTo_S128x32x32_S128_d1_2 : S128x32x32.ReducesTo [1, 2] S128
  dot_S4096x400_S400x1024_S4096x1024_1_0_0_1_n_n_wf : DotDims.WF S4096x400 S400x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []
  dot_S131072x800_S800x1024_S131072x1024_1_0_0_1_n_n_wf : DotDims.WF S131072x800 S800x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x1_S131072x1_1_0_0_1_n_n_wf : DotDims.WF S131072x1024 S1024x1 S131072x1 [1] [0] [0] [1] [] []

variable [Facts₀]

def dot_S4096x400_S400x1024_S4096x1024_1_0_0_1_n_n : DotDims S4096x400 S400x1024 S4096x1024 where
  lhsContracting := [1]
  rhsContracting := [0]
  lhsNonContracting := [0]
  rhsNonContracting := [1]
  lhsBatch := []
  rhsBatch := []
  wf := dot_S4096x400_S400x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S131072x800_S800x1024_S131072x1024_1_0_0_1_n_n : DotDims S131072x800 S800x1024 S131072x1024 where
  lhsContracting := [1]
  rhsContracting := [0]
  lhsNonContracting := [0]
  rhsNonContracting := [1]
  lhsBatch := []
  rhsBatch := []
  wf := dot_S131072x800_S800x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.WholeRun.lean ====
/-
  The idealized kernel program run as a whole, with EVERY buffer named at the end.

  The program is five stretches in a row: host operations, the first pallas region, host operations, the second
  pallas region, one last host operation. The contents of every buffer at each boundary are a fold from the launch
  memory: a host stretch applies its operations to the contents before it, a region replaces its own arrays by what
  its grid points write back and leaves every other buffer alone. `W5` is the last boundary of that fold. Every weakly
  fair execution terminates without a fault in a state where each buffer that outlives a region holds `W5` of it
  (`run_all`); in particular the result buffer does, and the fourteen arguments hold what they were launched with
  (`run_result`).
-/
import proofs.«163290_j86011015070455_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every buffer
    that outlives a region holds the last boundary's contents `W5`: the five segments chained from the launch memory,
    the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run, keeping the result buffer at the last boundary's contents and the fourteen arguments at what they
    were launched with (no host operation and no region writes an argument). -/
theorem run_result : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v25 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩) (run_all m ρ)

end Cert.KernelIdeal.WholeRun

end
-- ==== Proof.Spec.lean ====
/-
  The mathematics of this certificate, with no program in it.

  The network scores a scene of 32 agents per batch entry (128 entries). Each agent has a
  feature row of 400 numbers, so the features form a 4096 x 400 matrix X (row 32 b + i is agent i
  of entry b), which is the argument array of shape 128 x 128 x 100 read in row-major order.

  * The TRAJECTORY energy of a row is a three-layer perceptron: two rectified dense layers of width 1024 and
    a dense layer of width one,
    (sum_v relu(sum_u relu(sum_k X r k * W1 k u + B1 u) * W2 u v + B2 v) * W3 v) + B3.
  * The INTERACTION energy of an ordered pair (i, j) of agents of one entry is the same kind of perceptron
    applied to the two feature rows laid side by side (800 numbers). Because a dense layer is linear, its first
    layer on the joined row is the first 400 rows of the weight matrix applied to agent i plus the last 400
    rows applied to agent j: `proj` below is that half-layer, and `pairEnergy` takes the two halves.
  * The result at entry b is the sum of its 32 trajectory energies plus the sum over all 1024 ordered pairs
    of the pair's edge weight times its interaction energy.

  Every value is an extended real; sums are finite sums in the extended reals' commutative monoid, so they may
  be split, regrouped and reordered freely. No step distributes a product over a sum or cancels, so no
  finiteness of the inputs is used anywhere.
-/
import Idealize.ShloMosaic.PureOps.Ideal
import Idealize.ShloMosaic.Lib.ValueIdx

noncomputable section

open scoped BigOperators

namespace Cert.Energy

open Idealize.ShloMosaic Idealize.ShloMosaic.ValueIdx

/-- Arrays of extended reals of rank one, two and three over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The rectifier. -/
def relu (z : EReal) : EReal := max z 0

/-- One row of the trajectory perceptron: the energy of feature row `r`. The biases and the last layer's weights
    are rows (one line of 1024 numbers), the last bias a single number. -/
def trajRow (X : A2 4096 400) (W1 : A2 400 1024) (B1 : A2 1 1024) (W2 : A2 1024 1024) (B2 : A2 1 1024)
    (W3 : A2 1 1024) (B3 : A2 1 1) (r : Fin 4096) : EReal :=
  (∑ v : Fin 1024, relu ((∑ u : Fin 1024, relu ((∑ k : Fin 400, X (ix2 r k) * W1 (ix2 k u)) + B1 (ix2 0 u)) * W2 (ix2 u v))
      + B2 (ix2 0 v)) * W3 (ix2 0 v)) + B3 (ix2 0 0)

/-- Half of the interaction perceptron's first layer: feature row `r` against one 400-row half `W` of its weights. -/
def proj (X : A2 4096 400) (W : A2 400 1024) (r : Fin 4096) (u : Fin 1024) : EReal :=
  ∑ k : Fin 400, X (ix2 r k) * W (ix2 k u)

/-- The interaction energy of the ordered pair `(i, j)` of entry `b`, from the two half-layers `A` (the first agent's)
    and `Bb` (the second's) laid out entry by entry. -/
def pairEnergy (A Bb : A3 128 32 1024) (Bi1 : A2 1 1024) (W2 : A2 1024 1024) (Bi2 : A2 1 1024) (W3 : A2 1 1024)
    (Bi3 : A2 1 1) (b : Fin 128) (i j : Fin 32) : EReal :=
  (∑ v : Fin 1024, relu ((∑ u : Fin 1024, relu ((A (ix3 b i u) + Bb (ix3 b j u)) + Bi1 (ix2 0 u)) * W2 (ix2 u v))
      + Bi2 (ix2 0 v)) * W3 (ix2 0 v)) + Bi3 (ix2 0 0)

/-- The score of entry `b`: its summed trajectory energy `Tr` plus the edge-weighted sum of its pairs' interaction
    energies, the inner sum over the second agent, the outer over the first. -/
def entryScore (A Bb : A3 128 32 1024) (Ed : A3 128 32 32) (Tr : A3 128 1 1) (Bi1 : A2 1 1024) (W2 : A2 1024 1024)
    (Bi2 : A2 1 1024) (W3 : A2 1 1024) (Bi3 : A2 1 1) (b : Fin 128) : EReal :=
  Tr (ix3 b 0 0) + ∑ i : Fin 32, ∑ j : Fin 32, Ed (ix3 b i j) * pairEnergy A Bb Bi1 W2 Bi2 W3 Bi3 b i j

/-! ## The argument arrays as the network's operands -/

/-- The feature matrix: the 128 x 128 x 100 argument read in row-major order as 4096 rows of 400. -/
def features (x : A3 128 128 100) : A2 4096 400 := fun p =>
  x (ix3 (⟨((p 0).val * 400 + (p 1).val) / 12800, by have := idx2_lt0 p; have := idx2_lt1 p; omega⟩ : Fin 128)
         (⟨((p 0).val * 400 + (p 1).val) / 100 % 128, by omega⟩ : Fin 128)
         (⟨((p 0).val * 400 + (p 1).val) % 100, by omega⟩ : Fin 100))

/-- A vector of 1024 numbers as one row. -/
def asRow (b : A1 1024) : A2 1 1024 := fun p => b (ix1 (p 1))
/-- A column of 1024 numbers as one row. -/
def colAsRow (w : A2 1024 1) : A2 1 1024 := fun p => w (ix2 (p 1) 0)
/-- A single number as a 1 x 1 array. -/
def asCell (b : A1 1) : A2 1 1 := fun _ => b (ix1 0)
/-- The first 400 rows of the interaction perceptron's first weight matrix (the first agent's half). -/
def topHalf (w : A2 800 1024) : A2 400 1024 := fun p =>
  w (ix2 (⟨(p 0).val, by have := idx2_lt0 p; omega⟩ : Fin 800) (p 1))
/-- Its last 400 rows (the second agent's half). -/
def bottomHalf (w : A2 800 1024) : A2 400 1024 := fun p =>
  w (ix2 (⟨400 + (p 0).val, by have := idx2_lt0 p; omega⟩ : Fin 800) (p 1))

/-- Row `32 b + i` of the 4096, from the entry and the agent. -/
def rowOf (b : Fin 128) (i : Fin 32) : Fin 4096 := ⟨b.val * 32 + i.val, by have := b.isLt; have := i.isLt; omega⟩

/-- A half-layer laid out entry by entry. -/
def byEntry (P : Fin 4096 → Fin 1024 → EReal) : A3 128 32 1024 := fun q => P (rowOf (q 0) (q 1)) (q 2)

/-- The summed trajectory energy of each entry. -/
def trajEnergy (x : A3 128 128 100) (w1 : A2 400 1024) (b1 : A1 1024) (w2 : A2 1024 1024) (b2 : A1 1024)
    (w3 : A2 1024 1) (b3 : A1 1) : A3 128 1 1 := fun q =>
  ∑ n : Fin 32, trajRow (features x) w1 (asRow b1) w2 (asRow b2) (colAsRow w3) (asCell b3) (rowOf (q 0) n)

/-- THE RESULT: the score of entry `b` as one function of the fourteen argument arrays. -/
def score (x : A3 128 128 100) (edges : A3 128 32 32) (w1 : A2 400 1024) (b1 : A1 1024) (w2 : A2 1024 1024)
    (b2 : A1 1024) (w3 : A2 1024 1) (b3 : A1 1) (iw1 : A2 800 1024) (ib1 : A1 1024) (iw2 : A2 1024 1024)
    (ib2 : A1 1024) (iw3 : A2 1024 1) (ib3 : A1 1) : A2 128 1 := fun q =>
  entryScore (byEntry (proj (features x) (topHalf iw1))) (byEntry (proj (features x) (bottomHalf iw1))) edges
    (trajEnergy x w1 b1 w2 b2 w3 b3) (asRow ib1) iw2 (asRow ib2) (colAsRow iw3) (asCell ib3) (q 0)

end Cert.Energy

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.Stage1Pay.lean ====
/-
  The first kernel region's stored values read at an index, at exact values.

  Each of its three stores writes one pure function of the blocks it loaded. At exact values a change of float
  format is the identity and a matrix product into the zero accumulator is the plain sum over the contracted axis, so:

  * the two half-layer stores hold, at row p and column u, the sum over k of X p k * W k u (X the feature block,
    W the half of the interaction weights);
  * the energy store holds, at row p, the three-layer perceptron of that row: the rectified first layer
    (sum_k X p k * W1 k u) + B1 u, the rectified second layer (sum_u h1 u * W2 u v) + B2 v, then the last layer taken as
    a product with the row W3 summed along the lanes, kept as a column, plus the single bias B3.
-/
import proofs.«163290_j86011015070455_2_alg».proof.Proof.Gen.KernelIdeal.Skeleton
import proofs.«163290_j86011015070455_2_alg».proof.Proof.Spec
import proofs.«163290_j86011015070455_2_alg».proof.Proof.LibKeepdims
import proofs.«163290_j86011015070455_2_alg».proof.Proof.LibMatmul
import Idealize.ShloMosaic.Lib.ValueLayout
import Idealize.ShloMosaic.Lib.Pipeline.Value

noncomputable section

open scoped BigOperators

namespace Cert.KernelIdeal.Stage1

open Idealize.ShloMosaic Idealize.ShloMosaic.ValueIdx Cert.KernelIdeal Cert.KernelIdeal.Gen Cert.Energy

/-- A 512 x 400 by 400 x 1024 product into the zero accumulator, at row `p` and column `u`: the sum over the 400
    contracted positions of the row's entry times the column's. -/
theorem matmul400_apply (l : FVec Ideal S512x400 .bf16) (r : FVec Ideal S400x1024 .bf16) (p : Fin 512) (u : Fin 1024) :
    FloatOps.matmul dot_S512x400_S400x1024_S512x1024_1_0_0_1_n_n none l r (constant (F := Ideal) S512x1024 .f32 0x00000000#32) (ix2 p u)
      = ∑ k : Fin 400, l (ix2 p k) * r (ix2 k u) :=
  Cert.LibMatmul.matmul_zero_sum1 dot_S512x400_S400x1024_S512x1024_1_0_0_1_n_n none 400 rfl rfl l r (ix2 p u)
    (fun k => ix2 p k) (fun k => ix2 k u)
    (fun q k hk => funext fun a => Fin.ext (by
      match a with
      | ⟨0, _⟩ =>
        show (dot_S512x400_S400x1024_S512x1024_1_0_0_1_n_n.lhsIdx (ix2 p u) q 0).val = p.val
        unfold DotDims.lhsIdx
        rw [dif_neg (show ¬(0 : Fin S512x400.rank) ∈ dot_S512x400_S400x1024_S512x1024_1_0_0_1_n_n.lhsBatch by decide),
          dif_pos (show (0 : Fin S512x400.rank) ∈ dot_S512x400_S400x1024_S512x1024_1_0_0_1_n_n.lhsNonContracting by decide)]
        rfl
      | ⟨1, _⟩ => exact (dot_S512x400_S400x1024_S512x1024_1_0_0_1_n_n.lhsIdx_val_of_single rfl (ix2 p u) q).trans hk))
    (fun q k hk => funext fun a => Fin.ext (by
      match a with
      | ⟨0, _⟩ => exact (dot_S512x400_S400x1024_S512x1024_1_0_0_1_n_n.rhsIdx_val_of_single rfl (ix2 p u) q).trans hk
      | ⟨1, _⟩ =>
        show (dot_S512x400_S400x1024_S512x1024_1_0_0_1_n_n.rhsIdx (ix2 p u) q 1).val = u.val
        unfold DotDims.rhsIdx
        rw [dif_neg (show ¬(1 : Fin S400x1024.rank) ∈ dot_S512x400_S400x1024_S512x1024_1_0_0_1_n_n.rhsBatch by decide),
          dif_pos (show (1 : Fin S400x1024.rank) ∈ dot_S512x400_S400x1024_S512x1024_1_0_0_1_n_n.rhsNonContracting by decide)]
        rfl))

/-- A 512 x 1024 by 1024 x 1024 product into the zero accumulator, at row `p` and column `v`: the sum over the 1024
    contracted positions. -/
theorem matmul1024_apply (l : FVec Ideal S512x1024 .bf16) (r : FVec Ideal S1024x1024 .bf16) (p : Fin 512) (v : Fin 1024) :
    FloatOps.matmul dot_S512x1024_S1024x1024_S512x1024_1_0_0_1_n_n none l r (constant (F := Ideal) S512x1024 .f32 0x00000000#32) (ix2 p v)
      = ∑ u : Fin 1024, l (ix2 p u) * r (ix2 u v) :=
  Cert.LibMatmul.matmul_zero_sum1 dot_S512x1024_S1024x1024_S512x1024_1_0_0_1_n_n none 1024 rfl rfl l r (ix2 p v)
    (fun u => ix2 p u) (fun u => ix2 u v)
    (fun q k hk => funext fun a => Fin.ext (by
      match a with
      | ⟨0, _⟩ =>
        show (dot_S512x1024_S1024x1024_S512x1024_1_0_0_1_n_n.lhsIdx (ix2 p v) q 0).val = p.val
        unfold DotDims.lhsIdx
        rw [dif_neg (show ¬(0 : Fin S512x1024.rank) ∈ dot_S512x1024_S1024x1024_S512x1024_1_0_0_1_n_n.lhsBatch by decide),
          dif_pos (show (0 : Fin S512x1024.rank) ∈ dot_S512x1024_S1024x1024_S512x1024_1_0_0_1_n_n.lhsNonContracting by decide)]
        rfl
      | ⟨1, _⟩ => exact (dot_S512x1024_S1024x1024_S512x1024_1_0_0_1_n_n.lhsIdx_val_of_single rfl (ix2 p v) q).trans hk))
    (fun q k hk => funext fun a => Fin.ext (by
      match a with
      | ⟨0, _⟩ => exact (dot_S512x1024_S1024x1024_S512x1024_1_0_0_1_n_n.rhsIdx_val_of_single rfl (ix2 p v) q).trans hk
      | ⟨1, _⟩ =>
        show (dot_S512x1024_S1024x1024_S512x1024_1_0_0_1_n_n.rhsIdx (ix2 p v) q 1).val = v.val
        unfold DotDims.rhsIdx
        rw [dif_neg (show ¬(1 : Fin S1024x1024.rank) ∈ dot_S512x1024_S1024x1024_S512x1024_1_0_0_1_n_n.rhsBatch by decide),
          dif_pos (show (1 : Fin S1024x1024.rank) ∈ dot_S512x1024_S1024x1024_S512x1024_1_0_0_1_n_n.rhsNonContracting by decide)]
        rfl))

/-- The sum along the 1024 lanes of a 512 x 1024 array, at row `p`. -/
theorem laneSum_apply (src : FVec Ideal S512x1024 .f32) (hacc : (0x00000000#32 : BitVec 32) = 0x00000000#32) (p : Fin 512) :
    multiReduction (F := Ideal) .add [1] S512 src 0x00000000#32 reduces_S512x1024_S512 (.inl rfl) hacc (ix1 p)
      = ∑ v : Fin 1024, src (ix2 p v) := by
  refine (Ideal.multiReduction_add_single src 0x00000000#32 reduces_S512x1024_S512 (.inl rfl) hacc (ix1 p)).trans ?_
  show ∑ v : Fin 1024, src (reduces_S512x1024_S512.lift (ix1 p) v) = ∑ v : Fin 1024, src (ix2 p v)
  refine Finset.sum_congr rfl fun v _ => congrArg src (funext fun a => Fin.ext ?_)
  match a with
  | ⟨0, _⟩ => rfl
  | ⟨1, _⟩ => rfl

/-- The narrowed feature block is the feature block. -/
theorem pay3_apply (v0 : Vec Ideal S512x400 .f32) (i : S512x400.Idx) : (k0_pay3 (F := Ideal) v0 i : EReal) = v0 i := by
  unfold k0_pay3
  simp only [shapeCast_self]
  rfl

/-- The recast weight block is the weight block. -/
theorem pay5_eq (v33 : Vec Ideal S400x1024 .bf16) : k0_pay5 (F := Ideal) v33 = v33 := by
  unfold k0_pay5
  exact shapeCast_self _ _

/-- The first half-layer's store at row `p`, column `u`. -/
theorem pay1_apply (v2 : FVec Ideal S512x400 .bf16) (v34 : FVec Ideal S400x1024 .bf16) (p : Fin 512) (u : Fin 1024) :
    (k0_pay1 (F := Ideal) v2 v34 (ix2 p u) : EReal) = ∑ k : Fin 400, (v2 (ix2 p k) : EReal) * v34 (ix2 k u) :=
  matmul400_apply v2 v34 p u

/-- The second half-layer's store at row `p`, column `u`. -/
theorem pay2_apply (v2 : FVec Ideal S512x400 .bf16) (v36 : Vec Ideal S400x1024 .bf16) (p : Fin 512) (u : Fin 1024) :
    (k0_pay2 (F := Ideal) v2 v36 (ix2 p u) : EReal) = ∑ k : Fin 400, (v2 (ix2 p k) : EReal) * v36 (ix2 k u) := by
  unfold k0_pay2
  simp only [shapeCast_self]
  exact matmul400_apply v2 v36 p u

/-- The first half-layer from the loaded blocks: row `p` of the features against column `u` of the weights. -/
theorem half1_apply (x0 : Vec Ideal S512x400 .f32) (x7 : Vec Ideal S400x1024 .bf16) (p : Fin 512) (u : Fin 1024) :
    (k0_pay1 (F := Ideal) (k0_pay3 x0) (k0_pay5 x7) (ix2 p u) : EReal) = ∑ k : Fin 400, (x0 (ix2 p k) : EReal) * x7 (ix2 k u) := by
  rw [pay5_eq]
  refine (pay1_apply (k0_pay3 x0) x7 p u).trans ?_
  exact Finset.sum_congr rfl fun k _ => congrArg₂ (· * ·) (pay3_apply x0 (ix2 p k)) rfl

/-- The second half-layer from the loaded blocks. -/
theorem half2_apply (x0 : Vec Ideal S512x400 .f32) (x8 : Vec Ideal S400x1024 .bf16) (p : Fin 512) (u : Fin 1024) :
    (k0_pay2 (F := Ideal) (k0_pay3 x0) x8 (ix2 p u) : EReal) = ∑ k : Fin 400, (x0 (ix2 p k) : EReal) * x8 (ix2 k u) := by
  refine (pay2_apply (k0_pay3 x0) x8 p u).trans ?_
  exact Finset.sum_congr rfl fun k _ => congrArg₂ (· * ·) (pay3_apply x0 (ix2 p k)) rfl

/-- The energy store at row `p`: the three-layer perceptron of that row of the loaded blocks. -/
theorem pay4_apply (v0 : Vec Ideal S512x400 .f32) (v3 : Vec Ideal S400x1024 .bf16) (v6 : Vec Ideal S1x1024 .f32)
    (v13 : Vec Ideal S1024x1024 .bf16) (v16 v22 : Vec Ideal S1x1024 .f32) (v28 : Vec Ideal S1x1 .f32) (p : Fin 512) :
    (k0_pay4 (F := Ideal) v0 v3 v6 v13 v16 v22 v28 (ix2 p (0 : Fin 1)) : EReal)
      = (∑ v : Fin 1024, relu ((∑ u : Fin 1024, relu ((∑ k : Fin 400, (v0 (ix2 p k) : EReal) * v3 (ix2 k u)) + v6 (ix2 (0 : Fin 1) u))
            * v13 (ix2 u v)) + v16 (ix2 (0 : Fin 1) v)) * v22 (ix2 (0 : Fin 1) v)) + v28 (ix2 (0 : Fin 1) (0 : Fin 1)) := by
  unfold k0_pay4
  dsimp only
  simp only [shapeCast_self]
  refine (addf_apply _ _ _).trans ?_
  refine congrArg₂ (· + ·) ?_ (broadcastTo_1b_ab_apply _ _ p (0 : Fin 1))
  refine (Cert.LibKeepdims.shapeCast_a_a1_apply _ shapeCasts_S512_S512x1 p (0 : Fin 1)).trans ?_
  refine (laneSum_apply _ _ p).trans ?_
  refine Finset.sum_congr rfl fun v _ => ?_
  refine (mulf_apply _ _ _).trans ?_
  refine congrArg₂ (· * ·) ?_ (broadcastTo_1b_ab_apply _ _ p v)
  refine (maximumf_apply _ _ _).trans ?_
  show max _ _ = max _ (0 : EReal)
  refine congrArg₂ max ?_ Ideal.ofBits_zero_f32
  refine (addf_apply _ _ _).trans ?_
  refine congrArg₂ (· + ·) ?_ (broadcastTo_1b_ab_apply _ _ p v)
  refine (matmul1024_apply _ _ p v).trans ?_
  refine Finset.sum_congr rfl fun u _ => ?_
  refine congrArg₂ (· * ·) ?_ rfl
  show max _ _ = max _ (0 : EReal)
  refine congrArg₂ max ?_ Ideal.ofBits_zero_f32
  refine (addf_apply _ _ _).trans ?_
  refine congrArg₂ (· + ·) ?_ (broadcastTo_1b_ab_apply _ _ p u)
  refine (matmul400_apply _ _ p u).trans ?_
  exact Finset.sum_congr rfl fun k _ => congrArg₂ (· * ·) (pay3_apply v0 (ix2 p k)) rfl

end Cert.KernelIdeal.Stage1

end
-- ==== Proof.Stage1Blocks.lean ====
/-
  The first kernel region's three result arrays, as functions of the arrays the region finds.

  The grid has eight points; point t loads rows 512 t … 512 t + 511 of the feature array and the whole of every
  weight and bias array, and writes rows 512 t … 512 t + 511 of each result. Its stored values are, row by row, the
  trajectory perceptron of the row and the two half-layers of the row; a row of a block is row 512 t + p of the
  array, so what point t writes back is block t of ONE function of the arrays, and the eight blocks tile the
  4096 rows (row r is in block r / 512). Hence each result array ends holding that function everywhere.
-/
import proofs.«163290_j86011015070455_2_alg».proof.Proof.Gen.KernelIdeal.Frame
import proofs.«163290_j86011015070455_2_alg».proof.Proof.Stage1Pay
import Idealize.ShloMosaic.Lib.Pipeline.Value

set_option maxRecDepth 16384

noncomputable section

open scoped BigOperators

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen Cert.Energy

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The block index of every window at every grid point, decided over the eight points: the feature window and the three
    result windows move down their rows with the point, every other window stays on its one block. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-- The feature window's block at point `t` is rows `512 t … 512 t + 511` of the feature array. -/
theorem iblk_feat (c : Dev nD) (t : Fin cfg0.N) (p : Fin 512) (k : Fin 400) (r : Fin 4096) (hr : r.val = t.val * 512 + p.val) :
    ((iblk0 V c 0 t : Vec Ideal S512x400 .f32) (ix2 p k) : EReal) = (V c main_v1 : A2 4096 400) (ix2 r k) := by
  obtain ⟨e0, e1, -, -, -, -, -, -, -, -, -, -, -, -, -, -, -, -, -, -, -, -, -, -⟩ := idx_facts t
  unfold iblk0
  rw [View.read_apply]
  show V c main_v1 _ = V c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 400 + 1 * k.val = k.val; rw [e1]; omega

/-- Window 1 stays on its one block, the whole of its array, at every point. -/
theorem iblk_w1 (c : Dev nD) (t : Fin cfg0.N) (y : S400x1024.Idx) :
    ((iblk0 V c 1 t : Vec Ideal S400x1024 .bf16) y : EReal) = (V c main_v2 : A2 400 1024) y := by
  obtain ⟨-, -, e0, e1, -, -, -, -, -, -, -, -, -, -, -, -, -, -, -, -, -, -, -, -⟩ := idx_facts t
  unfold iblk0
  rw [View.read_apply]
  show V c main_v2 _ = V c main_v2 _
  congr 1
  funext a
  apply Fin.ext
  match a with
  | ⟨0, _⟩ => show win0_1.index t (0 : Fin 2) * 400 + 1 * (y 0).val = (y 0).val; rw [e0]; omega
  | ⟨1, _⟩ => show win0_1.index t (1 : Fin 2) * 1024 + 1 * (y 1).val = (y 1).val; rw [e1]; omega

/-- Window 2 stays on its one block, the whole of its array, at every point. -/
theorem iblk_w2 (c : Dev nD) (t : Fin cfg0.N) (y : S1x1024.Idx) :
    ((iblk0 V c 2 t : Vec Ideal S1x1024 .f32) y : EReal) = (V c main_v9 : A2 1 1024) y := by
  obtain ⟨-, -, -, -, e0, e1, -, -, -, -, -, -, -, -, -, -, -, -, -, -, -, -, -, -⟩ := idx_facts t
  unfold iblk0
  rw [View.read_apply]
  show V c main_v9 _ = V c main_v9 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- Window 3 stays on its one block, the whole of its array, at every point. -/
theorem iblk_w3 (c : Dev nD) (t : Fin cfg0.N) (y : S1024x1024.Idx) :
    ((iblk0 V c 3 t : Vec Ideal S1024x1024 .bf16) y : EReal) = (V c main_v3 : A2 1024 1024) y := by
  obtain ⟨-, -, -, -, -, -, e0, e1, -, -, -, -, -, -, -, -, -, -, -, -, -, -, -, -⟩ := idx_facts t
  unfold iblk0
  rw [View.read_apply]
  show V c main_v3 _ = V c main_v3 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Window 4 stays on its one block, the whole of its array, at every point. -/
theorem iblk_w4 (c : Dev nD) (t : Fin cfg0.N) (y : S1x1024.Idx) :
    ((iblk0 V c 4 t : Vec Ideal S1x1024 .f32) y : EReal) = (V c main_v10 : A2 1 1024) y := by
  obtain ⟨-, -, -, -, -, -, -, -, e0, e1, -, -, -, -, -, -, -, -, -, -, -, -, -, -⟩ := idx_facts t
  unfold iblk0
  rw [View.read_apply]
  show V c main_v10 _ = V c main_v10 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- Window 5 stays on its one block, the whole of its array, at every point. -/
theorem iblk_w5 (c : Dev nD) (t : Fin cfg0.N) (y : S1x1024.Idx) :
    ((iblk0 V c 5 t : Vec Ideal S1x1024 .f32) y : EReal) = (V c main_v11 : A2 1 1024) y := by
  obtain ⟨-, -, -, -, -, -, -, -, -, -, e0, e1, -, -, -, -, -, -, -, -, -, -, -, -⟩ := idx_facts t
  unfold iblk0
  rw [View.read_apply]
  show V c main_v11 _ = V c main_v11 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-- Window 6 stays on its one block, the whole of its array, at every point. -/
theorem iblk_w6 (c : Dev nD) (t : Fin cfg0.N) (y : S1x1.Idx) :
    ((iblk0 V c 6 t : Vec Ideal S1x1 .f32) y : EReal) = (V c main_v12 : A2 1 1) y := by
  obtain ⟨-, -, -, -, -, -, -, -, -, -, -, -, e0, e1, -, -, -, -, -, -, -, -, -, -⟩ := idx_facts t
  unfold iblk0
  rw [View.read_apply]
  show V c main_v12 _ = V c main_v12 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-- Window 7 stays on its one block, the whole of its array, at every point. -/
theorem iblk_w7 (c : Dev nD) (t : Fin cfg0.N) (y : S400x1024.Idx) :
    ((iblk0 V c 7 t : Vec Ideal S400x1024 .bf16) y : EReal) = (V c main_v5 : A2 400 1024) y := by
  obtain ⟨-, -, -, -, -, -, -, -, -, -, -, -, -, -, e0, e1, -, -, -, -, -, -, -, -⟩ := idx_facts t
  unfold iblk0
  rw [View.read_apply]
  show V c main_v5 _ = V c main_v5 _
  congr 1
  funext a
  apply Fin.ext
  match a with
  | ⟨0, _⟩ => show win0_7.index t (0 : Fin 2) * 400 + 1 * (y 0).val = (y 0).val; rw [e0]; omega
  | ⟨1, _⟩ => show win0_7.index t (1 : Fin 2) * 1024 + 1 * (y 1).val = (y 1).val; rw [e1]; omega

/-- Window 8 stays on its one block, the whole of its array, at every point. -/
theorem iblk_w8 (c : Dev nD) (t : Fin cfg0.N) (y : S400x1024.Idx) :
    ((iblk0 V c 8 t : Vec Ideal S400x1024 .bf16) y : EReal) = (V c main_v7 : A2 400 1024) y := by
  obtain ⟨-, -, -, -, -, -, -, -, -, -, -, -, -, -, -, -, e0, e1, -, -, -, -, -, -⟩ := idx_facts t
  unfold iblk0
  rw [View.read_apply]
  show V c main_v7 _ = V c main_v7 _
  congr 1
  funext a
  apply Fin.ext
  match a with
  | ⟨0, _⟩ => show win0_8.index t (0 : Fin 2) * 400 + 1 * (y 0).val = (y 0).val; rw [e0]; omega
  | ⟨1, _⟩ => show win0_8.index t (1 : Fin 2) * 1024 + 1 * (y 1).val = (y 1).val; rw [e1]; omega

/-! ## The stored values at any index of their block -/

/-- The energy store at an index of its 512 x 1 block whose row is `p`. -/
theorem pay4_at (v0 : Vec Ideal S512x400 .f32) (v3 : Vec Ideal S400x1024 .bf16) (v6 : Vec Ideal S1x1024 .f32)
    (v13 : Vec Ideal S1024x1024 .bf16) (v16 v22 : Vec Ideal S1x1024 .f32) (v28 : Vec Ideal S1x1 .f32)
    (y : S512x1.Idx) (p : Fin 512) (hp : (y 0).val = p.val) :
    (k0_pay4 (F := Ideal) v0 v3 v6 v13 v16 v22 v28 y : EReal)
      = (∑ v : Fin 1024, relu ((∑ u : Fin 1024, relu ((∑ k : Fin 400, (v0 (ix2 p k) : EReal) * v3 (ix2 k u)) + v6 (ix2 (0 : Fin 1) u))
            * v13 (ix2 u v)) + v16 (ix2 (0 : Fin 1) v)) * v22 (ix2 (0 : Fin 1) v)) + v28 (ix2 (0 : Fin 1) (0 : Fin 1)) := by
  have hy : y = ix2 p (0 : Fin 1) := funext fun a => Fin.ext (by
    match a with
    | ⟨0, _⟩ => exact hp
    | ⟨1, _⟩ => show (y 1).val = 0; have := idx2_lt1 y; omega)
  rw [hy]
  exact pay4_apply v0 v3 v6 v13 v16 v22 v28 p

/-- The first half-layer's store at an index of its 512 x 1024 block with row `p` and column `u`. -/
theorem half1_at (x0 : Vec Ideal S512x400 .f32) (x7 : Vec Ideal S400x1024 .bf16) (y : S512x1024.Idx) (p : Fin 512) (u : Fin 1024)
    (hp : (y 0).val = p.val) (hu : (y 1).val = u.val) :
    (k0_pay1 (F := Ideal) (k0_pay3 x0) (k0_pay5 x7) y : EReal) = ∑ k : Fin 400, (x0 (ix2 p k) : EReal) * x7 (ix2 k u) := by
  have hy : y = ix2 p u := funext fun a => Fin.ext (by
    match a with
    | ⟨0, _⟩ => exact hp
    | ⟨1, _⟩ => exact hu)
  rw [hy]
  exact half1_apply x0 x7 p u

/-- The second half-layer's store at an index of its block with row `p` and column `u`. -/
theorem half2_at (x0 : Vec Ideal S512x400 .f32) (x8 : Vec Ideal S400x1024 .bf16) (y : S512x1024.Idx) (p : Fin 512) (u : Fin 1024)
    (hp : (y 0).val = p.val) (hu : (y 1).val = u.val) :
    (k0_pay2 (F := Ideal) (k0_pay3 x0) x8 y : EReal) = ∑ k : Fin 400, (x0 (ix2 p k) : EReal) * x8 (ix2 k u) := by
  have hy : y = ix2 p u := funext fun a => Fin.ext (by
    match a with
    | ⟨0, _⟩ => exact hp
    | ⟨1, _⟩ => exact hu)
  rw [hy]
  exact half2_apply x0 x8 p u

/-! ## What each grid point writes back -/

/-- The energy column: what point `t` writes back is block `t` of the row-by-row perceptron of the arrays the region finds. -/
theorem flushed_traj (c : Dev nD) (t : Fin cfg0.N) :
    (dat0 (F := Ideal) V c).flushed 9 t = ((cfg0.win 9).blk t).view.read (Elt Ideal)
      (fun y => trajRow (V c main_v1) (V c main_v2) (V c main_v9) (V c main_v3) (V c main_v10) (V c main_v11) (V c main_v12) (y 0)) := by
  show (cfg0.win 9).cut (grid0.coords t) ((dat0 V c).after 9 t) = _
  rw [after0_9]
  unfold out0_9
  rw [View.canon_unit_zero hz]
  simp only [View.ld_unit_zero (S := S512x400) hz, View.ld_unit_zero (S := S400x1024) hz, View.ld_unit_zero (S := S1x1024) hz,
    View.ld_unit_zero (S := S1024x1024) hz, View.ld_unit_zero (S := S1x1) hz]
  obtain ⟨-, -, -, -, -, -, -, -, -, -, -, -, -, -, -, -, -, -, e0, e1, -, -, -, -⟩ := idx_facts t
  funext y
  rw [View.read_apply]
  have hy0 : (y 0).val < 512 := (y 0).isLt
  have hr : ((((View.whole main_v17_0).slice ((win0 9).rect t)).emb y) (0 : Fin 2)).val = t.val * 512 + (y 0).val := by
    show win0_9.index t (0 : Fin 2) * 512 + 1 * (y 0).val = _
    rw [e0]; omega
  refine (pay4_at (iblk0 V c 0 t) (iblk0 V c 1 t) (iblk0 V c 2 t) (iblk0 V c 3 t) (iblk0 V c 4 t) (iblk0 V c 5 t) (iblk0 V c 6 t)
    ((win0 9).xinj (grid0.coords t) y) ⟨(y 0).val, hy0⟩ rfl).trans ?_
  show _ = trajRow (V c main_v1) (V c main_v2) (V c main_v9) (V c main_v3) (V c main_v10) (V c main_v11) (V c main_v12)
    ((((View.whole main_v17_0).slice ((win0 9).rect t)).emb y) (0 : Fin 2))
  unfold trajRow
  refine congrArg₂ (· + ·) ?_ (iblk_w6 V c t (ix2 (0 : Fin 1) (0 : Fin 1)))
  refine Finset.sum_congr rfl fun v _ => ?_
  refine congrArg₂ (· * ·) (congrArg relu ?_) (iblk_w5 V c t (ix2 (0 : Fin 1) v))
  refine congrArg₂ (· + ·) ?_ (iblk_w4 V c t (ix2 (0 : Fin 1) v))
  refine Finset.sum_congr rfl fun u _ => ?_
  refine congrArg₂ (· * ·) (congrArg relu ?_) (iblk_w3 V c t (ix2 u v))
  refine congrArg₂ (· + ·) ?_ (iblk_w2 V c t (ix2 (0 : Fin 1) u))
  refine Finset.sum_congr rfl fun k _ => ?_
  exact congrArg₂ (· * ·) (iblk_feat V c t ⟨(y 0).val, hy0⟩ k _ hr) (iblk_w1 V c t (ix2 k u))

/-- The first half-layer: what point `t` writes back is block `t` of the feature rows against the weight half. -/
theorem flushed_half1 (c : Dev nD) (t : Fin cfg0.N) :
    (dat0 (F := Ideal) V c).flushed 10 t = ((cfg0.win 10).blk t).view.read (Elt Ideal)
      (fun y => proj (V c main_v1) (V c main_v5) (y 0) (y 1)) := by
  show (cfg0.win 10).cut (grid0.coords t) ((dat0 V c).after 10 t) = _
  rw [after0_10]
  unfold out0_10
  rw [View.canon_unit_zero hz]
  simp only [View.ld_unit_zero (S := S512x400) hz, View.ld_unit_zero (S := S400x1024) hz, View.ld_unit_zero (S := S1x1024) hz,
    View.ld_unit_zero (S := S1024x1024) hz, View.ld_unit_zero (S := S1x1) hz]
  obtain ⟨-, -, -, -, -, -, -, -, -, -, -, -, -, -, -, -, -, -, -, -, e0, e1, -, -⟩ := idx_facts t
  funext y
  rw [View.read_apply]
  have hy0 : (y 0).val < 512 := (y 0).isLt
  have hy1 : (y 1).val < 1024 := (y 1).isLt
  have hr : ((((View.whole main_v17_1).slice ((win0 10).rect t)).emb y) (0 : Fin 2)).val = t.val * 512 + (y 0).val := by
    show win0_10.index t (0 : Fin 2) * 512 + 1 * (y 0).val = _
    rw [e0]; omega
  have hu : (y 1).val = ((((View.whole main_v17_1).slice ((win0 10).rect t)).emb y) (1 : Fin 2)).val := by
    show _ = win0_10.index t (1 : Fin 2) * 1024 + 1 * (y 1).val
    rw [e1]; omega
  refine (half1_at (iblk0 V c 0 t) (iblk0 V c 7 t) ((win0 10).xinj (grid0.coords t) y) ⟨(y 0).val, hy0⟩
    ((((View.whole main_v17_1).slice ((win0 10).rect t)).emb y) (1 : Fin 2)) rfl hu).trans ?_
  show _ = proj (V c main_v1) (V c main_v5) ((((View.whole main_v17_1).slice ((win0 10).rect t)).emb y) (0 : Fin 2))
    ((((View.whole main_v17_1).slice ((win0 10).rect t)).emb y) (1 : Fin 2))
  unfold proj
  refine Finset.sum_congr rfl fun k _ => ?_
  exact congrArg₂ (· * ·) (iblk_feat V c t ⟨(y 0).val, hy0⟩ k _ hr) (iblk_w7 V c t (ix2 k _))

/-- The second half-layer: what point `t` writes back is block `t` of the feature rows against the weight half. -/
theorem flushed_half2 (c : Dev nD) (t : Fin cfg0.N) :
    (dat0 (F := Ideal) V c).flushed 11 t = ((cfg0.win 11).blk t).view.read (Elt Ideal)
      (fun y => proj (V c main_v1) (V c main_v7) (y 0) (y 1)) := by
  show (cfg0.win 11).cut (grid0.coords t) ((dat0 V c).after 11 t) = _
  rw [after0_11]
  unfold out0_11
  rw [View.canon_unit_zero hz]
  simp only [View.ld_unit_zero (S := S512x400) hz, View.ld_unit_zero (S := S400x1024) hz, View.ld_unit_zero (S := S1x1024) hz,
    View.ld_unit_zero (S := S1024x1024) hz, View.ld_unit_zero (S := S1x1) hz]
  obtain ⟨-, -, -, -, -, -, -, -, -, -, -, -, -, -, -, -, -, -, -, -, -, -, e0, e1⟩ := idx_facts t
  funext y
  rw [View.read_apply]
  have hy0 : (y 0).val < 512 := (y 0).isLt
  have hy1 : (y 1).val < 1024 := (y 1).isLt
  have hr : ((((View.whole main_v17_2).slice ((win0 11).rect t)).emb y) (0 : Fin 2)).val = t.val * 512 + (y 0).val := by
    show win0_11.index t (0 : Fin 2) * 512 + 1 * (y 0).val = _
    rw [e0]; omega
  have hu : (y 1).val = ((((View.whole main_v17_2).slice ((win0 11).rect t)).emb y) (1 : Fin 2)).val := by
    show _ = win0_11.index t (1 : Fin 2) * 1024 + 1 * (y 1).val
    rw [e1]; omega
  refine (half2_at (iblk0 V c 0 t) (iblk0 V c 8 t) ((win0 11).xinj (grid0.coords t) y) ⟨(y 0).val, hy0⟩
    ((((View.whole main_v17_2).slice ((win0 11).rect t)).emb y) (1 : Fin 2)) rfl hu).trans ?_
  show _ = proj (V c main_v1) (V c main_v7) ((((View.whole main_v17_2).slice ((win0 11).rect t)).emb y) (0 : Fin 2))
    ((((View.whole main_v17_2).slice ((win0 11).rect t)).emb y) (1 : Fin 2))
  unfold proj
  refine Finset.sum_congr rfl fun k _ => ?_
  exact congrArg₂ (· * ·) (iblk_feat V c t ⟨(y 0).val, hy0⟩ k _ hr) (iblk_w8 V c t (ix2 k _))

/-! ## The blocks cover their arrays -/

/-- An index of result array 0 is in point `t`'s block iff each coordinate is in the block's range on its axis. -/
theorem mem_blk9 (t : Fin cfg0.N) (i : S4096x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v17_0).slice (win0_9.rect t)).set ↔ _
  rw [View.set_slice_whole, Rect.mem_set_unit]
  exact Iff.rfl

/-- Row `r` of result array 0 is written by grid point `r / 512`. -/
theorem cover9 (i : S4096x1.Idx) : ∃ t : Fin cfg0.N, (cfg0.win 9).flush t = true ∧ i ∈ ((cfg0.win 9).blk t).view.set := by
  have hi0 : (i 0).val < 4096 := (i 0).isLt
  have hi1 : (i 1).val < 1 := (i 1).isLt
  have hN : cfg0.N = 8 := N_0
  have hlt : (i 0).val / 512 < cfg0.N := by rw [hN]; omega
  obtain ⟨-, -, -, -, -, -, -, -, -, -, -, -, -, -, -, -, -, -, e0, e1, -, -, -, -⟩ := idx_facts ⟨(i 0).val / 512, hlt⟩
  refine ⟨⟨(i 0).val / 512, hlt⟩, flush0_9 _, ?_⟩
  rw [mem_blk9]
  intro a
  match a with
  | ⟨0, _⟩ =>
    show win0_9.index ⟨(i 0).val / 512, hlt⟩ (0 : Fin 2) * 512 ≤ (i 0).val ∧ (i 0).val < win0_9.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_9.index ⟨(i 0).val / 512, hlt⟩ (1 : Fin 2) * 1 ≤ (i 1).val ∧ (i 1).val < win0_9.index ⟨(i 0).val / 512, hlt⟩ (1 : Fin 2) * 1 + 1
    rw [e1]
    omega

/-- An index of result array 1 is in point `t`'s block iff each coordinate is in the block's range on its axis. -/
theorem mem_blk10 (t : Fin cfg0.N) (i : S4096x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v17_1).slice (win0_10.rect t)).set ↔ _
  rw [View.set_slice_whole, Rect.mem_set_unit]
  exact Iff.rfl

/-- Row `r` of result array 1 is written by grid point `r / 512`. -/
theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 8 := N_0
  have hlt : (i 0).val / 512 < cfg0.N := by rw [hN]; omega
  obtain ⟨-, -, -, -, -, -, -, -, -, -, -, -, -, -, -, -, -, -, -, -, e0, e1, -, -⟩ := idx_facts ⟨(i 0).val / 512, hlt⟩
  refine ⟨⟨(i 0).val / 512, hlt⟩, flush0_10 _, ?_⟩
  rw [mem_blk10]
  intro a
  match a with
  | ⟨0, _⟩ =>
    show win0_10.index ⟨(i 0).val / 512, hlt⟩ (0 : Fin 2) * 512 ≤ (i 0).val ∧ (i 0).val < win0_10.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_10.index ⟨(i 0).val / 512, hlt⟩ (1 : Fin 2) * 1024 ≤ (i 1).val ∧ (i 1).val < win0_10.index ⟨(i 0).val / 512, hlt⟩ (1 : Fin 2) * 1024 + 1024
    rw [e1]
    omega

/-- An index of result array 2 is in point `t`'s block iff each coordinate is in the block's range on its axis. -/
theorem mem_blk11 (t : Fin cfg0.N) (i : S4096x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v17_2).slice (win0_11.rect t)).set ↔ _
  rw [View.set_slice_whole, Rect.mem_set_unit]
  exact Iff.rfl

/-- Row `r` of result array 2 is written by grid point `r / 512`. -/
theorem cover11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : cfg0.N = 8 := N_0
  have hlt : (i 0).val / 512 < cfg0.N := by rw [hN]; omega
  obtain ⟨-, -, -, -, -, -, -, -, -, -, -, -, -, -, -, -, -, -, -, -, -, -, e0, e1⟩ := idx_facts ⟨(i 0).val / 512, hlt⟩
  refine ⟨⟨(i 0).val / 512, hlt⟩, flush0_11 _, ?_⟩
  rw [mem_blk11]
  intro a
  match a with
  | ⟨0, _⟩ =>
    show win0_11.index ⟨(i 0).val / 512, hlt⟩ (0 : Fin 2) * 512 ≤ (i 0).val ∧ (i 0).val < win0_11.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_11.index ⟨(i 0).val / 512, hlt⟩ (1 : Fin 2) * 1024 ≤ (i 1).val ∧ (i 1).val < win0_11.index ⟨(i 0).val / 512, hlt⟩ (1 : Fin 2) * 1024 + 1024
    rw [e1]
    omega

/-! ## The three result arrays after the region -/

/-- The energy column after the region: row `r` holds the trajectory perceptron of feature row `r`. -/
theorem traj_final (c : Dev nD) :
    (dat0 (F := Ideal) V c).arrAt 9 cfg0.N
      = fun y => trajRow (V c main_v1) (V c main_v2) (V c main_v9) (V c main_v3) (V c main_v10) (V c main_v11) (V c main_v12) (y 0) :=
  (dat0 (F := Ideal) V c).arrAt_eq_of_cover 9 _ (fun t _ => flushed_traj V c t) cover9

/-- The first half-layer after the region: feature row `r` against column `u` of the top half of the weights. -/
theorem half1_final (c : Dev nD) :
    (dat0 (F := Ideal) V c).arrAt 10 cfg0.N = fun y => proj (V c main_v1) (V c main_v5) (y 0) (y 1) :=
  (dat0 (F := Ideal) V c).arrAt_eq_of_cover 10 _ (fun t _ => flushed_half1 V c t) cover10

/-- The second half-layer after the region: feature row `r` against column `u` of the bottom half of the weights. -/
theorem half2_final (c : Dev nD) :
    (dat0 (F := Ideal) V c).arrAt 11 cfg0.N = fun y => proj (V c main_v1) (V c main_v7) (y 0) (y 1) :=
  (dat0 (F := Ideal) V c).arrAt_eq_of_cover 11 _ (fun t _ => flushed_half2 V c t) cover11

end Cert.KernelIdeal.Stage1

end
-- ==== Proof.Stage2Piece.lean ====
/-
  What one grid point of the second region leaves in its output block, as ONE term over the point's nine input
  blocks, for any float instance.

  The body keeps a 1024 x 1024 accumulator in a scratch buffer: it stores the zero matrix, then four times loads a
  256-wide slab of the two half-layer blocks, of the first bias row and of the second weight matrix, reads the
  accumulator back, and stores accumulator + (rectified slab) x (weight slab). Every store covers the whole scratch
  buffer, so each read-back sees exactly the last stored value, whatever was stored before it
  (`readCov_cons_whole`). The last read-back feeds the final layer, whose single number is the output block.
  `accumulated` is that chain of four slabs from zero; `pointValue` the output block.
-/
import proofs.«163290_j86011015070455_2_alg».proof.Proof.Gen.KernelIdeal.Frame
import Idealize.ShloMosaic.Lib.Pipeline.Value

set_option maxRecDepth 16384

noncomputable section

namespace Cert.KernelIdeal.Stage2

open Idealize.ShloMosaic Idealize.ShloMosaic.TcCoe Idealize.ShloMosaic.Tactic Idealize.SL.Sem
open Cert.KernelIdeal Cert.KernelIdeal.Gen

/-- A whole-buffer load of what a whole-buffer store left LAST reads that store's value, whatever the earlier stores
    were: the last store covers every index. -/
theorem readCov_cons_whole {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The 256-wide slabs the body loads: of a half-layer block (1 x 32 x 1024) at lane offsets 0, 256, 512, 768. -/
abbrev slabA0 : Rect S1x32x1024 := Rect.unit (s := S1x32x1024) ![0, 0, 0] S1x32x256.size inb_S1x32x1024_S1x32x256_0_0_0
abbrev slabA1 : Rect S1x32x1024 := Rect.unit (s := S1x32x1024) ![0, 0, 256] S1x32x256.size inb_S1x32x1024_S1x32x256_0_0_256
abbrev slabA2 : Rect S1x32x1024 := Rect.unit (s := S1x32x1024) ![0, 0, 512] S1x32x256.size inb_S1x32x1024_S1x32x256_0_0_512
abbrev slabA3 : Rect S1x32x1024 := Rect.unit (s := S1x32x1024) ![0, 0, 768] S1x32x256.size inb_S1x32x1024_S1x32x256_0_0_768
/-- … of the first bias row (1 x 1024) at the same offsets … -/
abbrev slabB0 : Rect S1x1024 := Rect.unit (s := S1x1024) ![0, 0] S1x256.size inb_S1x1024_S1x256_0_0
abbrev slabB1 : Rect S1x1024 := Rect.unit (s := S1x1024) ![0, 256] S1x256.size inb_S1x1024_S1x256_0_256
abbrev slabB2 : Rect S1x1024 := Rect.unit (s := S1x1024) ![0, 512] S1x256.size inb_S1x1024_S1x256_0_512
abbrev slabB3 : Rect S1x1024 := Rect.unit (s := S1x1024) ![0, 768] S1x256.size inb_S1x1024_S1x256_0_768
/-- … and 256 rows of the second weight matrix (1024 x 1024) at row offsets 0, 256, 512, 768. -/
abbrev slabW0 : Rect S1024x1024 := Rect.unit (s := S1024x1024) ![0, 0] S256x1024.size inb_S1024x1024_S256x1024_0_0
abbrev slabW1 : Rect S1024x1024 := Rect.unit (s := S1024x1024) ![256, 0] S256x1024.size inb_S1024x1024_S256x1024_256_0
abbrev slabW2 : Rect S1024x1024 := Rect.unit (s := S1024x1024) ![512, 0] S256x1024.size inb_S1024x1024_S256x1024_512_0
abbrev slabW3 : Rect S1024x1024 := Rect.unit (s := S1024x1024) ![768, 0] S256x1024.size inb_S1024x1024_S256x1024_768_0

/-- The accumulator after the four slabs, from the zero matrix. -/
def accumulated (x0 x1 : Vec F S1x32x1024 .f32) (x4 : Vec F S1x1024 .f32) (x5 : Vec F S1024x1024 .bf16) :
    FVec F S1024x1024 .f32 :=
  k1_pay1 (k1_pay10 (View.ld x0 slabA3) (View.ld x1 slabA3) (View.ld x4 slabB3) (View.ld x5 slabW3)
    (k1_pay9 (k1_pay7 (View.ld x0 slabA2) (View.ld x1 slabA2)) (k1_pay8 (View.ld x4 slabB2)) (View.ld x5 slabW2)
      (k1_pay6 (View.ld x0 slabA1) (View.ld x1 slabA1) (View.ld x4 slabB1) (View.ld x5 slabW1)
        (k1_pay5 (View.ld x0 slabA0) (View.ld x1 slabA0) (View.ld x4 slabB0) (View.ld x5 slabW0)
          (k1_pay4 (F := F))))))

/-- The output block a point leaves: the final layer over the accumulated second layer, the edge weights `x2` and the
    entry's trajectory energy `x3`. -/
def pointValue (x0 x1 : Vec F S1x32x1024 .f32) (x2 : Vec F S1x32x32 .f32) (x3 : Vec F S1x1x1 .f32) (x4 : Vec F S1x1024 .f32)
    (x5 : Vec F S1024x1024 .bf16) (x6 x7 : Vec F S1x1024 .f32) (x8 : Vec F S1x1 .f32) : Vec F S1x1x1 .f32 :=
  k1_pay2 (k1_pay3 x2) (accumulated x0 x1 x4 x5) x6 x7 x8 x3

/-- What the run of the body leaves in the output's staging buffer IS `pointValue` of the input blocks. -/
theorem out_eq_pointValue (c : Dev nD) (i : grid1.Coords) (arg1 : Memref sig .tc .vmem S1x32x1024 .f32) (harg1 : arg1.IsWhole) (arg2 : Memref sig .tc .vmem S1x32x1024 .f32) (harg2 : arg2.IsWhole) (arg3 : Memref sig .tc .vmem S1x32x32 .f32) (harg3 : arg3.IsWhole) (arg4 : Memref sig .tc .vmem S1x1x1 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1x1x1 .f32) (harg10 : arg10.IsWhole) (arg11 : Memref sig .tc .vmem S1024x1024 .f32) (harg11 : arg11.IsWhole)
    (x0 : Vec F S1x32x1024 .f32) (x1 : Vec F S1x32x1024 .f32) (x2 : Vec F S1x32x32 .f32) (x3 : Vec F S1x1x1 .f32) (x4 : Vec F S1x1024 .f32) (x5 : Vec F S1024x1024 .bf16) (x6 : Vec F S1x1024 .f32) (x7 : Vec F S1x1024 .f32) (x8 : Vec F S1x1 .f32) :
    out1_A_9 (F := F) c i arg1 harg1 arg2 harg2 arg3 harg3 arg4 harg4 arg5 harg5 arg6 harg6 arg7 harg7 arg8 harg8 arg9 harg9 arg10 harg10 arg11 harg11 x0 x1 x2 x3 x4 x5 x6 x7 x8 = pointValue x0 x1 x2 x3 x4 x5 x6 x7 x8 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun1_A
  dsimp only
  sl_unfold_words
  rw [View.canon_unit_zero hz3]
  simp only [readCov_cons_whole (S := S1024x1024) _ hz2, View.readCov_unit_zero (S := S1024x1024) _ hz2]
  unfold pointValue accumulated
  simp only [View.readAt_eq_ld, harg1.read_unread, harg2.read_unread, harg3.read_unread, harg4.read_unread,
    harg5.read_unread, harg6.read_unread, harg7.read_unread, harg8.read_unread, harg9.read_unread,
    View.ld_unit_zero (S := S1x32x32) hz3, View.ld_unit_zero (S := S1x1x1) hz3, View.ld_unit_zero (S := S1x1024) hz2,
    View.ld_unit_zero (S := S1x1) hz2]

end Cert.KernelIdeal.Stage2

end
-- ==== Proof.Stage2Slab.lean ====
/-
  One 256-wide slab of the second layer, read at an entry of the accumulator, at the ideal instance.

  Row `32 i + j` of the 1024 x 1024 accumulator belongs to the ordered pair (i, j). A slab step adds to it, at
  column v, the sum over the slab's 256 hidden units u of
      max ((a i u + b j u) + s u) 0  *  w u v ,
  where a, b are the slab of the two half-layer blocks, s the slab of the first bias row and w the slab's 256 rows of
  the second weight matrix: the broadcast sum of the two half-layers over the pair, rectified, then one matrix
  product into the zero accumulator.
-/
import proofs.«163290_j86011015070455_2_alg».proof.Proof.Stage2Piece
import proofs.«163290_j86011015070455_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Stage2

open Idealize.ShloMosaic Idealize.ShloMosaic.ValueIdx
open Cert.KernelIdeal Cert.KernelIdeal.Gen

/-- The accumulator's row of the ordered pair (i, j). -/
def pairRow (i j : Fin 32) : Fin 1024 := ⟨i.val * 32 + j.val, by have := i.isLt; have := j.isLt; omega⟩

/-! ## Layout operations of the slab, each read at an index by coordinates -/

section Layout
variable {α : Type}

/-- A 32 x 256 array cast to 32 x 1 x 256 reads, at (i, w, u), the operand at (i, u). -/
theorem cast_32x256_32x1x256 (x : (⟨2, ![32, 256]⟩ : Shape).Idx → α)
    (h : (⟨2, ![32, 256]⟩ : Shape).ShapeCasts ⟨3, ![32, 1, 256]⟩) (i : Fin 32) (w : Fin 1) (u : Fin 256) :
    shapeCast ⟨3, ![32, 1, 256]⟩ x h (ix3 i w u) = x (ix2 i u) :=
  shapeCast_apply x h _ _ (by
    have hw : w.val = 0 := by omega
    rw [Shape.rowMajor_val_three, Shape.rowMajor_val_two]
    show i.val * 256 + u.val = (i.val * 1 + w.val) * 256 + u.val
    rw [hw]; omega)

/-- A 32 x 32 x 256 array cast to 1024 x 256 reads, at (32 i + j, u), the operand at (i, j, u). -/
theorem cast_32x32x256_1024x256 (x : (⟨3, ![32, 32, 256]⟩ : Shape).Idx → α)
    (h : (⟨3, ![32, 32, 256]⟩ : Shape).ShapeCasts ⟨2, ![1024, 256]⟩) (i j : Fin 32) (u : Fin 256) :
    shapeCast ⟨2, ![1024, 256]⟩ x h (ix2 (pairRow i j) u) = x (ix3 i j u) :=
  shapeCast_apply x h _ _ (by
    rw [Shape.rowMajor_val_three, Shape.rowMajor_val_two]
    show (i.val * 32 + j.val) * 256 + u.val = (i.val * 32 + j.val) * 256 + u.val
    rfl)

/-- A 32 x 1 x 256 array broadcast to 32 x 32 x 256 reads, at (i, j, u), the operand at (i, 0, u). -/
theorem bcast_32x1x256 (x : (⟨3, ![32, 1, 256]⟩ : Shape).Idx → α)
    (h : (⟨3, ![32, 1, 256]⟩ : Shape).Broadcasts ⟨3, ![32, 32, 256]⟩) (i j : Fin 32) (u : Fin 256) :
    broadcastTo ⟨3, ![32, 32, 256]⟩ x h (ix3 i j u) = x (ix3 i (0 : Fin 1) u) := by
  refine broadcastTo_apply x h (ix3 i j u) (ix3 i (0 : Fin 1) u) fun ax => ?_
  match ax with
  | ⟨0, _⟩ => rfl
  | ⟨1, _⟩ => rfl
  | ⟨2, _⟩ => rfl

/-- A 1 x 32 x 256 array broadcast to 32 x 32 x 256 reads, at (i, j, u), the operand at (0, j, u). -/
theorem bcast_1x32x256 (x : (⟨3, ![1, 32, 256]⟩ : Shape).Idx → α)
    (h : (⟨3, ![1, 32, 256]⟩ : Shape).Broadcasts ⟨3, ![32, 32, 256]⟩) (i j : Fin 32) (u : Fin 256) :
    broadcastTo ⟨3, ![32, 32, 256]⟩ x h (ix3 i j u) = x (ix3 (0 : Fin 1) j u) := by
  refine broadcastTo_apply x h (ix3 i j u) (ix3 (0 : Fin 1) j u) fun ax => ?_
  match ax with
  | ⟨0, _⟩ => rfl
  | ⟨1, _⟩ => rfl
  | ⟨2, _⟩ => rfl

/-- A 1 x 1 x 256 array broadcast to 32 x 32 x 256 reads, at (i, j, u), the operand at (0, 0, u). -/
theorem bcast_1x1x256 (x : (⟨3, ![1, 1, 256]⟩ : Shape).Idx → α)
    (h : (⟨3, ![1, 1, 256]⟩ : Shape).Broadcasts ⟨3, ![32, 32, 256]⟩) (i j : Fin 32) (u : Fin 256) :
    broadcastTo ⟨3, ![32, 32, 256]⟩ x h (ix3 i j u) = x (ix3 (0 : Fin 1) (0 : Fin 1) u) := by
  refine broadcastTo_apply x h (ix3 i j u) (ix3 (0 : Fin 1) (0 : Fin 1) u) fun ax => ?_
  match ax with
  | ⟨0, _⟩ => rfl
  | ⟨1, _⟩ => rfl
  | ⟨2, _⟩ => rfl

end Layout

/-! ## The slab's matrix product: its operand indices -/

local notation "Dslab" => dot_S1024x256_S256x1024_S1024x1024_1_0_0_1_n_n

theorem slab_lhs (p : S1024x1024.Idx) (q : (Dslab).contr.Idx) (u : Fin 256) (hq : (q ⟨0, by decide⟩ : ℕ) = u.val) :
    (Dslab).lhsIdx p q = ix2 (p 0) u := funext fun a => Fin.ext (by
  match a with
  | ⟨0, _⟩ =>
    show ((Dslab).lhsIdx p q 0).val = (p 0).val
    unfold DotDims.lhsIdx
    rw [dif_neg (show ¬(0 : Fin S1024x256.rank) ∈ (Dslab).lhsBatch by decide),
      dif_pos (show (0 : Fin S1024x256.rank) ∈ (Dslab).lhsNonContracting by decide)]
    rfl
  | ⟨1, _⟩ => exact ((Dslab).lhsIdx_val_of_single rfl p q).trans hq)

theorem slab_rhs (p : S1024x1024.Idx) (q : (Dslab).contr.Idx) (u : Fin 256) (hq : (q ⟨0, by decide⟩ : ℕ) = u.val) :
    (Dslab).rhsIdx p q = ix2 u (p 1) := funext fun a => Fin.ext (by
  match a with
  | ⟨0, _⟩ => exact ((Dslab).rhsIdx_val_of_single rfl p q).trans hq
  | ⟨1, _⟩ =>
    show ((Dslab).rhsIdx p q 1).val = (p 1).val
    unfold DotDims.rhsIdx
    rw [dif_neg (show ¬(1 : Fin S256x1024.rank) ∈ (Dslab).rhsBatch by decide),
      dif_pos (show (1 : Fin S256x1024.rank) ∈ (Dslab).rhsNonContracting by decide)]
    rfl)

/-! ## One slab step at an entry -/

/-- The slab step at row (i, j), column v: what was accumulated plus the slab's 256 products. -/
theorem slab_apply (a b : Vec Ideal S1x32x256 .f32) (s : Vec Ideal S1x256 .f32) (w : Vec Ideal S256x1024 .bf16)
    (acc : Vec Ideal S1024x1024 .f32) (i j : Fin 32) (v : Fin 1024) :
    k1_pay5 (F := Ideal) a b s w acc (ix2 (pairRow i j) v)
      = acc (ix2 (pairRow i j) v)
        + ∑ u : Fin 256, max ((a (ix3 (0 : Fin 1) i u) + b (ix3 (0 : Fin 1) j u)) + s (ix2 (0 : Fin 1) u)) 0 * w (ix2 u v) := by
  unfold k1_pay5
  rw [shapeCast_self, addf_apply]
  refine congrArg (acc (ix2 (pairRow i j) v) + ·) ?_
  refine (Cert.LibMatmul.matmul_zero_sum1 (Dslab) none 256 rfl rfl _ _ (ix2 (pairRow i j) v)
    (fun u => ix2 (pairRow i j) u) (fun u => ix2 u v)
    (fun q u hq => slab_lhs _ q u hq) (fun q u hq => slab_rhs _ q u hq)).trans ?_
  refine Finset.sum_congr rfl fun u _ => ?_
  rw [truncf_apply, cast_32x32x256_1024x256, maximumf_apply, addf_apply, addf_apply, bcast_32x1x256, bcast_1x32x256,
    bcast_1x1x256, cast_32x256_32x1x256, shapeCast_ab_1ab_apply, shapeCast_ab_1ab_apply, shapeCast_1ab_ab_apply,
    shapeCast_1ab_ab_apply, shapeCast_self, shapeCast_self, broadcast_apply]
  show max _ (Ideal.ofBits .f32 0x00000000#32) * _ = _
  rw [Ideal.ofBits_zero_f32]

end Cert.KernelIdeal.Stage2

end
-- ==== Proof.Stage2Acc.lean ====
/-
  The accumulated second layer at an entry of the accumulator: after the four slab steps from the zero matrix, row
  (i, j), column v holds the FULL sum over the 1024 hidden units u of
      max ((A i u + B j u) + s u) 0  *  W u v ,
  where A, B are the point's two half-layer blocks, s the first bias row and W the second weight matrix.

  The four steps are one function of (slab of A, slab of B, slab of s, slab of W, accumulator); a slab load reads
  its block 256 lanes (or rows) further along per step; and a sum over 1024 terms is the sum of its four consecutive
  runs of 256, which is all the regrouping there is (additions only).
-/
import proofs.«163290_j86011015070455_2_alg».proof.Proof.Stage2Slab

set_option maxRecDepth 16384

noncomputable section

open scoped BigOperators

namespace Cert.KernelIdeal.Stage2

open Idealize.ShloMosaic Idealize.ShloMosaic.ValueIdx
open Cert.KernelIdeal Cert.KernelIdeal.Gen

section Same
variable {F : FTy → Type} [FloatOps F]

/-- The second, third and fourth slab steps are the first step's function (the third is printed in two halves, the fourth with its
    trailing identity cast apart). -/
theorem step2_eq (a b : Vec F S1x32x256 .f32) (s : Vec F S1x256 .f32) (w : Vec F S256x1024 .bf16) (acc : Vec F S1024x1024 .f32) :
    k1_pay6 (F := F) a b s w acc = k1_pay5 a b s w acc := rfl
theorem step3_eq (a b : Vec F S1x32x256 .f32) (s : Vec F S1x256 .f32) (w : Vec F S256x1024 .bf16) (acc : Vec F S1024x1024 .f32) :
    k1_pay9 (F := F) (k1_pay7 a b) (k1_pay8 s) w acc = k1_pay5 a b s w acc := rfl
theorem step4_eq (a b : Vec F S1x32x256 .f32) (s : Vec F S1x256 .f32) (w : Vec F S256x1024 .bf16) (acc : Vec F S1024x1024 .f32) :
    k1_pay1 (k1_pay10 (F := F) a b s w acc) = k1_pay5 a b s w acc := rfl

end Same

/-! ## The slab loads at an index -/

/-- A 1 x 32 x 256 slab of a 1 x 32 x 1024 block starting at lane `o` reads, at (0, i, u), the block at (0, i, o + u). -/
theorem ld_slabA (x : Vec Ideal S1x32x1024 .f32) (o : Nat)
    (inb : ∀ a, (![0, 0, o] : Fin 3 → Nat) a + S1x32x256.size a ≤ S1x32x1024.size a) (i : Fin 32) (u : Fin 256)
    (k : Fin 1024) (hk : k.val = o + u.val) :
    View.ld x (Rect.unit (s := S1x32x1024) ![0, 0, o] S1x32x256.size inb) (ix3 (0 : Fin 1) i u) = x (ix3 (0 : Fin 1) i k) := by
  show x _ = x _
  refine congrArg x (funext fun a => Fin.ext ?_)
  match a with
  | ⟨0, _⟩ => rfl
  | ⟨1, _⟩ => show 0 + 1 * i.val = i.val; omega
  | ⟨2, _⟩ => show o + 1 * u.val = k.val; omega

/-- A 1 x 256 slab of the bias row starting at lane `o` reads, at (0, u), the row at (0, o + u). -/
theorem ld_slabB (x : Vec Ideal S1x1024 .f32) (o : Nat)
    (inb : ∀ a, (![0, o] : Fin 2 → Nat) a + S1x256.size a ≤ S1x1024.size a) (u : Fin 256)
    (k : Fin 1024) (hk : k.val = o + u.val) :
    View.ld x (Rect.unit (s := S1x1024) ![0, o] S1x256.size inb) (ix2 (0 : Fin 1) u) = x (ix2 (0 : Fin 1) k) := by
  show x _ = x _
  refine congrArg x (funext fun a => Fin.ext ?_)
  match a with
  | ⟨0, _⟩ => rfl
  | ⟨1, _⟩ => show o + 1 * u.val = k.val; omega

/-- 256 rows of the weight matrix starting at row `o` read, at (u, v), the matrix at (o + u, v). -/
theorem ld_slabW (x : Vec Ideal S1024x1024 .bf16) (o : Nat)
    (inb : ∀ a, (![o, 0] : Fin 2 → Nat) a + S256x1024.size a ≤ S1024x1024.size a) (u : Fin 256) (v : Fin 1024)
    (k : Fin 1024) (hk : k.val = o + u.val) :
    View.ld x (Rect.unit (s := S1024x1024) ![o, 0] S256x1024.size inb) (ix2 u v) = x (ix2 k v) := by
  show x _ = x _
  refine congrArg x (funext fun a => Fin.ext ?_)
  match a with
  | ⟨0, _⟩ => show o + 1 * u.val = k.val; omega
  | ⟨1, _⟩ => show 0 + 1 * v.val = v.val; omega

/-! ## A sum over 1024 terms as its four runs of 256 -/

/-- The index `o + u` of the run starting at `o`. -/
def runIdx (o : Nat) (ho : o + 256 ≤ 1024) (u : Fin 256) : Fin 1024 := ⟨o + u.val, by have := u.isLt; omega⟩

theorem sum_four_runs (f : Fin 1024 → EReal) :
    (((0 + ∑ u : Fin 256, f (runIdx 0 (by omega) u)) + ∑ u : Fin 256, f (runIdx 256 (by omega) u))
        + ∑ u : Fin 256, f (runIdx 512 (by omega) u)) + ∑ u : Fin 256, f (runIdx 768 (by omega) u)
      = ∑ u : Fin 1024, f u := by
  have e1 : ∑ u : Fin 1024, f u
      = ∑ u : Fin 768, f ⟨u.val, by have := u.isLt; omega⟩ + ∑ u : Fin 256, f (runIdx 768 (by omega) u) :=
    Fin.sum_univ_add (a := 768) (b := 256) f
  have e2 : ∑ u : Fin 768, f ⟨u.val, by have := u.isLt; omega⟩
      = ∑ u : Fin 512, f ⟨u.val, by have := u.isLt; omega⟩ + ∑ u : Fin 256, f (runIdx 512 (by omega) u) :=
    Fin.sum_univ_add (a := 512) (b := 256) (fun u : Fin 768 => f ⟨u.val, by have := u.isLt; omega⟩)
  have e3 : ∑ u : Fin 512, f ⟨u.val, by have := u.isLt; omega⟩
      = ∑ u : Fin 256, f ⟨u.val, by have := u.isLt; omega⟩ + ∑ u : Fin 256, f (runIdx 256 (by omega) u) :=
    Fin.sum_univ_add (a := 256) (b := 256) (fun u : Fin 512 => f ⟨u.val, by have := u.isLt; omega⟩)
  have e4 : ∑ u : Fin 256, f (runIdx 0 (by omega) u) = ∑ u : Fin 256, f ⟨u.val, by have := u.isLt; omega⟩ :=
    Finset.sum_congr rfl fun u _ => congrArg f (Fin.ext (Nat.zero_add _))
  rw [zero_add, e1, e2, e3, e4]

/-! ## The accumulated layer -/

/-- The zero matrix the body starts from, at any entry. -/
theorem zero_apply (p : S1024x1024.Idx) : k1_pay4 (F := Ideal) p = 0 := by
  unfold k1_pay4
  rw [shapeCast_self, broadcast_apply]
  exact Ideal.ofBits_zero_f32

/-- Row (i, j), column v of the accumulated layer: the full sum over the 1024 hidden units. -/
theorem accumulated_apply (x0 x1 : Vec Ideal S1x32x1024 .f32) (x4 : Vec Ideal S1x1024 .f32) (x5 : Vec Ideal S1024x1024 .bf16)
    (i j : Fin 32) (v : Fin 1024) :
    accumulated (F := Ideal) x0 x1 x4 x5 (ix2 (pairRow i j) v)
      = ∑ u : Fin 1024, max ((x0 (ix3 (0 : Fin 1) i u) + x1 (ix3 (0 : Fin 1) j u)) + x4 (ix2 (0 : Fin 1) u)) 0 * x5 (ix2 u v) := by
  unfold accumulated
  rw [step4_eq, step3_eq, step2_eq, slab_apply, slab_apply, slab_apply, slab_apply, zero_apply]
  rw [← sum_four_runs fun u => max ((x0 (ix3 (0 : Fin 1) i u) + x1 (ix3 (0 : Fin 1) j u)) + x4 (ix2 (0 : Fin 1) u)) 0 * x5 (ix2 u v)]
  refine congrArg₂ (· + ·) (congrArg₂ (· + ·) (congrArg₂ (· + ·) (congrArg (0 + ·) ?_) ?_) ?_) ?_ <;>
    refine Finset.sum_congr rfl fun u _ => ?_
  · rw [ld_slabA x0 0 _ i u (runIdx 0 (by omega) u) rfl, ld_slabA x1 0 _ j u (runIdx 0 (by omega) u) rfl,
      ld_slabB x4 0 _ u (runIdx 0 (by omega) u) rfl, ld_slabW x5 0 _ u v (runIdx 0 (by omega) u) rfl]
  · rw [ld_slabA x0 256 _ i u (runIdx 256 (by omega) u) rfl, ld_slabA x1 256 _ j u (runIdx 256 (by omega) u) rfl,
      ld_slabB x4 256 _ u (runIdx 256 (by omega) u) rfl, ld_slabW x5 256 _ u v (runIdx 256 (by omega) u) rfl]
  · rw [ld_slabA x0 512 _ i u (runIdx 512 (by omega) u) rfl, ld_slabA x1 512 _ j u (runIdx 512 (by omega) u) rfl,
      ld_slabB x4 512 _ u (runIdx 512 (by omega) u) rfl, ld_slabW x5 512 _ u v (runIdx 512 (by omega) u) rfl]
  · rw [ld_slabA x0 768 _ i u (runIdx 768 (by omega) u) rfl, ld_slabA x1 768 _ j u (runIdx 768 (by omega) u) rfl,
      ld_slabB x4 768 _ u (runIdx 768 (by omega) u) rfl, ld_slabW x5 768 _ u v (runIdx 768 (by omega) u) rfl]

end Cert.KernelIdeal.Stage2

end
-- ==== Proof.Stage2Final.lean ====
/-
  The final layer of the second region at the ideal instance: the single number a grid point leaves.

  From the accumulated second layer `acc` (row (i, j) of the 1024 x 1024 matrix belongs to the ordered pair (i, j)),
  the pair's interaction energy is  (sum over the 1024 units v of  max (acc (i,j) v + b2 v) 0 * w3 v) + b3 ; each is
  multiplied by the pair's edge weight and the 1024 products are summed, first over the second agent j (a lane sum),
  then over the first agent i (a sum down the column); the entry's trajectory energy is added last.
-/
import proofs.«163290_j86011015070455_2_alg».proof.Proof.Stage2Acc

set_option maxRecDepth 16384

noncomputable section

open scoped BigOperators

namespace Cert.KernelIdeal.Stage2

open Idealize.ShloMosaic Idealize.ShloMosaic.ValueIdx
open Cert.KernelIdeal Cert.KernelIdeal.Gen

/-! ## Layout operations of the final layer, each read at an index by coordinates -/

section Layout
variable {α : Type}

/-- A 1024 x 1024 array cast to 32 x 32 x 1024 reads, at (i, j, v), the operand at (32 i + j, v). -/
theorem cast_1024x1024_32x32x1024 (x : (⟨2, ![1024, 1024]⟩ : Shape).Idx → α)
    (h : (⟨2, ![1024, 1024]⟩ : Shape).ShapeCasts ⟨3, ![32, 32, 1024]⟩) (i j : Fin 32) (v : Fin 1024) :
    shapeCast ⟨3, ![32, 32, 1024]⟩ x h (ix3 i j v) = x (ix2 (pairRow i j) v) :=
  shapeCast_apply x h _ _ (by
    rw [Shape.rowMajor_val_three, Shape.rowMajor_val_two]
    show (i.val * 32 + j.val) * 1024 + v.val = (i.val * 32 + j.val) * 1024 + v.val
    rfl)

/-- A 1 x 1 x 1024 array broadcast to 32 x 32 x 1024 reads, at (i, j, v), the operand at (0, 0, v). -/
theorem bcast_1x1x1024 (x : (⟨3, ![1, 1, 1024]⟩ : Shape).Idx → α)
    (h : (⟨3, ![1, 1, 1024]⟩ : Shape).Broadcasts ⟨3, ![32, 32, 1024]⟩) (i j : Fin 32) (v : Fin 1024) :
    broadcastTo ⟨3, ![32, 32, 1024]⟩ x h (ix3 i j v) = x (ix3 (0 : Fin 1) (0 : Fin 1) v) := by
  refine broadcastTo_apply x h (ix3 i j v) (ix3 (0 : Fin 1) (0 : Fin 1) v) fun ax => ?_
  match ax with
  | ⟨0, _⟩ => rfl
  | ⟨1, _⟩ => rfl
  | ⟨2, _⟩ => rfl

/-- A 1 x 1 array broadcast to 32 x 32 reads its one entry everywhere. -/
theorem bcast_1x1_32x32 (x : (⟨2, ![1, 1]⟩ : Shape).Idx → α)
    (h : (⟨2, ![1, 1]⟩ : Shape).Broadcasts ⟨2, ![32, 32]⟩) (i j : Fin 32) :
    broadcastTo ⟨2, ![32, 32]⟩ x h (ix2 i j) = x (ix2 (0 : Fin 1) (0 : Fin 1)) := by
  refine broadcastTo_apply x h (ix2 i j) (ix2 (0 : Fin 1) (0 : Fin 1)) fun ax => ?_
  match ax with
  | ⟨0, _⟩ => rfl
  | ⟨1, _⟩ => rfl

/-- A vector of 32 cast to a 32 x 1 column reads, at (i, w), the vector at i. -/
theorem cast_32_32x1 (x : (⟨1, ![32]⟩ : Shape).Idx → α)
    (h : (⟨1, ![32]⟩ : Shape).ShapeCasts ⟨2, ![32, 1]⟩) (i : Fin 32) (w : Fin 1) :
    shapeCast ⟨2, ![32, 1]⟩ x h (ix2 i w) = x (ix1 i) :=
  shapeCast_apply x h _ _ (by
    have hw : w.val = 0 := by omega
    rw [Shape.rowMajor_val_two, Shape.rowMajor_val_one]
    show i.val = i.val * 1 + w.val
    rw [hw]; omega)

end Layout

/-! ## The three sums' inserted indices -/

theorem lift_units (i j : Fin 32) (v : Fin 1024) :
    reduces_S32x32x1024_S32x32.lift (ix2 i j) v = ix3 i j v :=
  funext fun a => Fin.ext (by match a with | ⟨0, _⟩ => rfl | ⟨1, _⟩ => rfl | ⟨2, _⟩ => rfl)

theorem lift_second (i j : Fin 32) : reduces_S32x32_S32.lift (ix1 i) j = ix2 i j :=
  funext fun a => Fin.ext (by match a with | ⟨0, _⟩ => rfl | ⟨1, _⟩ => rfl)

theorem lift_first (w : Fin 1) (i : Fin 32) : reduces_S32x1_S1.lift (ix1 w) i = ix2 i w :=
  funext fun a => Fin.ext (by match a with | ⟨0, _⟩ => rfl | ⟨1, _⟩ => rfl)

/-! ## The final layer -/

theorem final_apply (v1 : FVec Ideal S32x32 .f32) (acc : Vec Ideal S1024x1024 .f32) (b2 w3 : Vec Ideal S1x1024 .f32)
    (b3 : Vec Ideal S1x1 .f32) (tr : Vec Ideal S1x1x1 .f32) :
    k1_pay2 (F := Ideal) v1 acc b2 w3 b3 tr (ix3 (0 : Fin 1) (0 : Fin 1) (0 : Fin 1))
      = tr (ix3 (0 : Fin 1) (0 : Fin 1) (0 : Fin 1))
        + ∑ i : Fin 32, ∑ j : Fin 32, v1 (ix2 i j)
            * ((∑ v : Fin 1024, max (acc (ix2 (pairRow i j) v) + b2 (ix2 (0 : Fin 1) v)) 0 * w3 (ix2 (0 : Fin 1) v))
                + b3 (ix2 (0 : Fin 1) (0 : Fin 1))) := by
  unfold k1_pay2
  simp only [shapeCast_self]
  rw [shapeCast_ab_1ab_apply, addf_apply, shapeCast_1ab_ab_apply, shapeCast_a_1a_apply]
  refine congrArg (tr (ix3 (0 : Fin 1) (0 : Fin 1) (0 : Fin 1)) + ·) ?_
  refine (Ideal.multiReduction_add_single _ 0x00000000#32 reduces_S32x1_S1 (.inl rfl) rfl (ix1 (0 : Fin 1))).trans ?_
  show ∑ i : Fin 32, _ = _
  refine Finset.sum_congr rfl fun i _ => ?_
  rw [lift_first, cast_32_32x1]
  refine (Ideal.multiReduction_add_single _ 0x00000000#32 reduces_S32x32_S32 (.inl rfl) rfl (ix1 i)).trans ?_
  show ∑ j : Fin 32, _ = _
  refine Finset.sum_congr rfl fun j _ => ?_
  rw [lift_second, mulf_apply, addf_apply, bcast_1x1_32x32]
  refine congrArg (v1 (ix2 i j) * ·) (congrArg (· + b3 (ix2 (0 : Fin 1) (0 : Fin 1))) ?_)
  refine (Ideal.multiReduction_add_single _ 0x00000000#32 reduces_S32x32x1024_S32x32 (.inl rfl) rfl (ix2 i j)).trans ?_
  show ∑ v : Fin 1024, _ = _
  refine Finset.sum_congr rfl fun v _ => ?_
  rw [lift_units, mulf_apply, cast_1024x1024_32x32x1024, maximumf_apply, addf_apply, broadcastTo_1b_ab_apply,
    bcast_1x1x1024, shapeCast_ab_1ab_apply, broadcast_apply]
  show max _ (Ideal.ofBits .f32 0x00000000#32) * _ = _
  rw [Ideal.ofBits_zero_f32]

/-- THE POINT'S VALUE: the single number a grid point leaves, from its nine input blocks. -/
theorem pointValue_apply (x0 x1 : Vec Ideal S1x32x1024 .f32) (x2 : Vec Ideal S1x32x32 .f32) (x3 : Vec Ideal S1x1x1 .f32)
    (x4 : Vec Ideal S1x1024 .f32) (x5 : Vec Ideal S1024x1024 .bf16) (x6 x7 : Vec Ideal S1x1024 .f32) (x8 : Vec Ideal S1x1 .f32) :
    pointValue (F := Ideal) x0 x1 x2 x3 x4 x5 x6 x7 x8 (ix3 (0 : Fin 1) (0 : Fin 1) (0 : Fin 1))
      = x3 (ix3 (0 : Fin 1) (0 : Fin 1) (0 : Fin 1))
        + ∑ i : Fin 32, ∑ j : Fin 32, x2 (ix3 (0 : Fin 1) i j)
            * ((∑ v : Fin 1024,
                  max ((∑ u : Fin 1024, max ((x0 (ix3 (0 : Fin 1) i u) + x1 (ix3 (0 : Fin 1) j u)) + x4 (ix2 (0 : Fin 1) u)) 0 * x5 (ix2 u v))
                        + x6 (ix2 (0 : Fin 1) v)) 0 * x7 (ix2 (0 : Fin 1) v))
                + x8 (ix2 (0 : Fin 1) (0 : Fin 1))) := by
  unfold pointValue
  rw [final_apply]
  refine congrArg (x3 (ix3 (0 : Fin 1) (0 : Fin 1) (0 : Fin 1)) + ·) ?_
  refine Finset.sum_congr rfl fun i _ => Finset.sum_congr rfl fun j _ => ?_
  unfold k1_pay3
  rw [shapeCast_1ab_ab_apply]
  refine congrArg (x2 (ix3 (0 : Fin 1) i j) * ·) (congrArg (· + x8 (ix2 (0 : Fin 1) (0 : Fin 1))) ?_)
  refine Finset.sum_congr rfl fun v _ => ?_
  rw [accumulated_apply]

end Cert.KernelIdeal.Stage2

end
-- ==== Proof.Stage2Array.lean ====
/-
  The second region's output array, whole: entry b of the 128 x 1 x 1 array ends holding the score of entry b
  computed from the arrays the region finds.

  Grid point t handles entry t: its blocks of the two half-layer arrays, of the edge weights and of the summed
  trajectory energies are the slices at entry t, its blocks of the biases and weights are the whole arrays, and the
  one number it writes back lands at entry t of the output. The 128 points' blocks are the 128 entries, so they cover
  the array.
-/
import proofs.«163290_j86011015070455_2_alg».proof.Proof.Stage2Final
import proofs.«163290_j86011015070455_2_alg».proof.Proof.Spec

set_option maxRecDepth 16384

noncomputable section

open scoped BigOperators

namespace Cert.KernelIdeal.Stage2

open Idealize.ShloMosaic Idealize.ShloMosaic.TcCoe Idealize.ShloMosaic.ValueIdx Idealize.SL.Sem
open Idealize.ShloMosaic.Pipeline (Dat)
open Cert.KernelIdeal Cert.KernelIdeal.Gen Cert.Energy

variable (V : (c : Dev nD) → (b : Ref sig .tc) → Buf (Elt Ideal) ((c : Thread nD τ).loc b))

/-- The output array as ONE function of the arrays the region finds. -/
def outArray (c : Dev nD) : S128x1x1.Idx → EReal := fun y =>
  entryScore (V c main_v22) (V c main_v23) (V c main_arg1) (V c main_v21) (V c main_v13) (V c main_v8) (V c main_v14)
    (V c main_v15) (V c main_v16) (y 0)

/-- The output array at entry b. -/
theorem outArray_apply (c : Dev nD) (b : Fin 128) :
    outArray V c (ix3 b (0 : Fin 1) (0 : Fin 1))
      = entryScore (V c main_v22) (V c main_v23) (V c main_arg1) (V c main_v21) (V c main_v13) (V c main_v8) (V c main_v14)
          (V c main_v15) (V c main_v16) b := rfl

/-- The printed index maps, decided over the 128 grid points: the four per-entry windows and the output move with
    the point, the five shared windows stay at block zero. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_9.index t (0 : Fin 3) = t.val ∧ win1_9.index t (1 : Fin 3) = 0 ∧ win1_9.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-! ## The point's blocks, read at an index -/

theorem blkA (c : Dev nD) (t : Fin cfg1.N) (b : Fin 128) (hb : b.val = t.val) (i : Fin 32) (u : Fin 1024) :
    iblk1 V c 0 t (ix3 (0 : Fin 1) i u) = V c main_v22 (ix3 b i u) := by
  obtain ⟨⟨e0, e1, e2⟩, -⟩ := idx_facts t
  show V c main_v22 (((cfg1.win 0).blk t).view.emb (ix3 (0 : Fin 1) i u)) = V c main_v22 (ix3 b i u)
  refine congrArg (V c main_v22) (funext fun a => Fin.ext ?_)
  match a with
  | ⟨0, _⟩ => show win1_0.index t (0 : Fin 3) * 1 + 1 * 0 = b.val; omega
  | ⟨1, _⟩ => show win1_0.index t (1 : Fin 3) * 32 + 1 * i.val = i.val; omega
  | ⟨2, _⟩ => show win1_0.index t (2 : Fin 3) * 1024 + 1 * u.val = u.val; omega

theorem blkB (c : Dev nD) (t : Fin cfg1.N) (b : Fin 128) (hb : b.val = t.val) (j : Fin 32) (u : Fin 1024) :
    iblk1 V c 1 t (ix3 (0 : Fin 1) j u) = V c main_v23 (ix3 b j u) := by
  obtain ⟨-, ⟨e0, e1, e2⟩, -⟩ := idx_facts t
  show V c main_v23 (((cfg1.win 1).blk t).view.emb (ix3 (0 : Fin 1) j u)) = V c main_v23 (ix3 b j u)
  refine congrArg (V c main_v23) (funext fun a => Fin.ext ?_)
  match a with
  | ⟨0, _⟩ => show win1_1.index t (0 : Fin 3) * 1 + 1 * 0 = b.val; omega
  | ⟨1, _⟩ => show win1_1.index t (1 : Fin 3) * 32 + 1 * j.val = j.val; omega
  | ⟨2, _⟩ => show win1_1.index t (2 : Fin 3) * 1024 + 1 * u.val = u.val; omega

theorem blkEdges (c : Dev nD) (t : Fin cfg1.N) (b : Fin 128) (hb : b.val = t.val) (i j : Fin 32) :
    iblk1 V c 2 t (ix3 (0 : Fin 1) i j) = V c main_arg1 (ix3 b i j) := by
  obtain ⟨-, -, ⟨e0, e1, e2⟩, -⟩ := idx_facts t
  show V c main_arg1 (((cfg1.win 2).blk t).view.emb (ix3 (0 : Fin 1) i j)) = V c main_arg1 (ix3 b i j)
  refine congrArg (V c main_arg1) (funext fun a => Fin.ext ?_)
  match a with
  | ⟨0, _⟩ => show win1_2.index t (0 : Fin 3) * 1 + 1 * 0 = b.val; omega
  | ⟨1, _⟩ => show win1_2.index t (1 : Fin 3) * 32 + 1 * i.val = i.val; omega
  | ⟨2, _⟩ => show win1_2.index t (2 : Fin 3) * 32 + 1 * j.val = j.val; omega

theorem blkTraj (c : Dev nD) (t : Fin cfg1.N) (b : Fin 128) (hb : b.val = t.val) :
    iblk1 V c 3 t (ix3 (0 : Fin 1) (0 : Fin 1) (0 : Fin 1)) = V c main_v21 (ix3 b (0 : Fin 1) (0 : Fin 1)) := by
  obtain ⟨-, -, -, ⟨e0, e1, e2⟩, -⟩ := idx_facts t
  show V c main_v21 (((cfg1.win 3).blk t).view.emb (ix3 (0 : Fin 1) (0 : Fin 1) (0 : Fin 1))) = V c main_v21 (ix3 b (0 : Fin 1) (0 : Fin 1))
  refine congrArg (V c main_v21) (funext fun a => Fin.ext ?_)
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 1 + 1 * 0 = 0; omega

theorem blkBias1 (c : Dev nD) (t : Fin cfg1.N) (u : Fin 1024) :
    iblk1 V c 4 t (ix2 (0 : Fin 1) u) = V c main_v13 (ix2 (0 : Fin 1) u) := by
  obtain ⟨-, -, -, -, -, ⟨e0, e1⟩, -⟩ := idx_facts t
  show V c main_v13 (((cfg1.win 4).blk t).view.emb (ix2 (0 : Fin 1) u)) = V c main_v13 (ix2 (0 : Fin 1) u)
  refine congrArg (V c main_v13) (funext fun a => Fin.ext ?_)
  match a with
  | ⟨0, _⟩ => show win1_4.index t (0 : Fin 2) * 1 + 1 * 0 = 0; omega
  | ⟨1, _⟩ => show win1_4.index t (1 : Fin 2) * 1024 + 1 * u.val = u.val; omega

theorem blkW2 (c : Dev nD) (t : Fin cfg1.N) (u v : Fin 1024) :
    iblk1 V c 5 t (ix2 u v) = V c main_v8 (ix2 u v) := by
  obtain ⟨-, -, -, -, -, -, ⟨e0, e1⟩, -⟩ := idx_facts t
  show V c main_v8 (((cfg1.win 5).blk t).view.emb (ix2 u v)) = V c main_v8 (ix2 u v)
  refine congrArg (V c main_v8) (funext fun a => Fin.ext ?_)
  match a with
  | ⟨0, _⟩ => show win1_5.index t (0 : Fin 2) * 1024 + 1 * u.val = u.val; omega
  | ⟨1, _⟩ => show win1_5.index t (1 : Fin 2) * 1024 + 1 * v.val = v.val; omega

theorem blkBias2 (c : Dev nD) (t : Fin cfg1.N) (v : Fin 1024) :
    iblk1 V c 6 t (ix2 (0 : Fin 1) v) = V c main_v14 (ix2 (0 : Fin 1) v) := by
  obtain ⟨-, -, -, -, -, -, -, ⟨e0, e1⟩, -⟩ := idx_facts t
  show V c main_v14 (((cfg1.win 6).blk t).view.emb (ix2 (0 : Fin 1) v)) = V c main_v14 (ix2 (0 : Fin 1) v)
  refine congrArg (V c main_v14) (funext fun a => Fin.ext ?_)
  match a with
  | ⟨0, _⟩ => show win1_6.index t (0 : Fin 2) * 1 + 1 * 0 = 0; omega
  | ⟨1, _⟩ => show win1_6.index t (1 : Fin 2) * 1024 + 1 * v.val = v.val; omega

theorem blkW3 (c : Dev nD) (t : Fin cfg1.N) (v : Fin 1024) :
    iblk1 V c 7 t (ix2 (0 : Fin 1) v) = V c main_v15 (ix2 (0 : Fin 1) v) := by
  obtain ⟨-, -, -, -, -, -, -, -, ⟨e0, e1⟩, -⟩ := idx_facts t
  show V c main_v15 (((cfg1.win 7).blk t).view.emb (ix2 (0 : Fin 1) v)) = V c main_v15 (ix2 (0 : Fin 1) v)
  refine congrArg (V c main_v15) (funext fun a => Fin.ext ?_)
  match a with
  | ⟨0, _⟩ => show win1_7.index t (0 : Fin 2) * 1 + 1 * 0 = 0; omega
  | ⟨1, _⟩ => show win1_7.index t (1 : Fin 2) * 1024 + 1 * v.val = v.val; omega

theorem blkBias3 (c : Dev nD) (t : Fin cfg1.N) :
    iblk1 V c 8 t (ix2 (0 : Fin 1) (0 : Fin 1)) = V c main_v16 (ix2 (0 : Fin 1) (0 : Fin 1)) := by
  obtain ⟨-, -, -, -, -, -, -, -, -, ⟨e0, e1⟩⟩ := idx_facts t
  show V c main_v16 (((cfg1.win 8).blk t).view.emb (ix2 (0 : Fin 1) (0 : Fin 1))) = V c main_v16 (ix2 (0 : Fin 1) (0 : Fin 1))
  refine congrArg (V c main_v16) (funext fun a => Fin.ext ?_)
  match a with
  | ⟨0, _⟩ => show win1_8.index t (0 : Fin 2) * 1 + 1 * 0 = 0; omega
  | ⟨1, _⟩ => show win1_8.index t (1 : Fin 2) * 1 + 1 * 0 = 0; omega

/-! ## What point t writes back, and the cover -/

/-- The entry a grid point handles. -/
def entryOf (t : Fin cfg1.N) : Fin 128 := ⟨t.val, t.isLt⟩

set_option backward.isDefEq.respectTransparency.types false in
/-- WHAT POINT t WRITES BACK is block t of the output array's function. -/
theorem flushed_eq (c : Dev nD) (t : Fin cfg1.N) :
    (dat1 (F := Ideal) V c).flushed 9 t = ((cfg1.win 9).blk t).view.read (Elt Ideal) (outArray V c) := by
  show (cfg1.win 9).cut (grid1.coords t) ((dat1 (F := Ideal) V c).after 9 t) = _
  rw [after1_9]
  unfold outsAt1
  rw [out_eq_pointValue]
  obtain ⟨-, -, -, -, ⟨e0, e1, e2⟩, -⟩ := idx_facts t
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  have he : ((cfg1.win 9).blk t).view.emb (ix3 (0 : Fin 1) (0 : Fin 1) (0 : Fin 1))
      = (ix3 (entryOf t) (0 : Fin 1) (0 : Fin 1) : S128x1x1.Idx) := funext fun a => Fin.ext (by
    match a with
    | ⟨0, _⟩ => show win1_9.index t (0 : Fin 3) * 1 + 1 * 0 = t.val; omega
    | ⟨1, _⟩ => show win1_9.index t (1 : Fin 3) * 1 + 1 * 0 = 0; omega
    | ⟨2, _⟩ => show win1_9.index t (2 : Fin 3) * 1 + 1 * 0 = 0; omega)
  show pointValue (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix3 (0 : Fin 1) (0 : Fin 1) (0 : Fin 1))
    = outArray V c (((cfg1.win 9).blk t).view.emb (ix3 (0 : Fin 1) (0 : Fin 1) (0 : Fin 1)))
  rw [he, outArray_apply]
  refine (pointValue_apply (iblk1 V c 0 t) (iblk1 V c 1 t) (iblk1 V c 2 t) (iblk1 V c 3 t) (iblk1 V c 4 t) (iblk1 V c 5 t)
      (iblk1 V c 6 t) (iblk1 V c 7 t) (iblk1 V c 8 t)).trans ?_
  unfold entryScore pairEnergy relu
  simp only [blkTraj V c t (entryOf t) rfl, blkBias3 V c t, blkEdges V c t (entryOf t) rfl, blkBias2 V c t, blkW3 V c t,
    blkA V c t (entryOf t) rfl, blkB V c t (entryOf t) rfl, blkBias1 V c t, blkW2 V c t]

/-- An index of the output array is in point t's block iff its entry is t (the other two axes have one coordinate). -/
theorem mem_blk (t : Fin cfg1.N) (i : S128x1x1.Idx) :
    i ∈ ((cfg1.win 9).blk t).view.set ↔ ∀ a : Fin 3, win1_9.index t a * S1x1x1.size a ≤ (i a).val
      ∧ (i a).val < win1_9.index t a * S1x1x1.size a + S1x1x1.size a := by
  show i ∈ ((View.whole main_v24).slice (win1_9.rect t)).set ↔ _
  rw [View.set_slice_whole, Rect.mem_set_unit]
  exact Iff.rfl

/-- Every entry of the output array is some point's block. -/
theorem cover (i : S128x1x1.Idx) : ∃ t : Fin cfg1.N, (cfg1.win 9).flush t = true ∧ i ∈ ((cfg1.win 9).blk t).view.set := by
  have h0 : (i 0).val < 128 := (i 0).isLt
  have h1 : (i 1).val < 1 := (i 1).isLt
  have h2 : (i 2).val < 1 := (i 2).isLt
  refine ⟨⟨(i 0).val, h0⟩, flush1_9 _, ?_⟩
  obtain ⟨-, -, -, -, ⟨e0, e1, e2⟩, -⟩ := idx_facts ⟨(i 0).val, h0⟩
  rw [mem_blk]
  intro a
  match a with
  | ⟨0, _⟩ => show win1_9.index ⟨(i 0).val, h0⟩ (0 : Fin 3) * 1 ≤ (i 0).val ∧ (i 0).val < win1_9.index ⟨(i 0).val, h0⟩ (0 : Fin 3) * 1 + 1; simp only [e0]; omega
  | ⟨1, _⟩ => show win1_9.index ⟨(i 0).val, h0⟩ (1 : Fin 3) * 1 ≤ (i 1).val ∧ (i 1).val < win1_9.index ⟨(i 0).val, h0⟩ (1 : Fin 3) * 1 + 1; omega
  | ⟨2, _⟩ => show win1_9.index ⟨(i 0).val, h0⟩ (2 : Fin 3) * 1 ≤ (i 2).val ∧ (i 2).val < win1_9.index ⟨(i 0).val, h0⟩ (2 : Fin 3) * 1 + 1; omega

/-- THE OUTPUT ARRAY after the region: the score of every entry, from the arrays the region finds. -/
theorem region1_out (c : Dev nD) : (dat1 (F := Ideal) V c).arrAt 9 cfg1.N = outArray V c :=
  (dat1 (F := Ideal) V c).arrAt_eq_of_cover 9 (outArray V c) (fun t _ => flushed_eq V c t) (cover)

end Cert.KernelIdeal.Stage2

end
-- ==== Proof.HostGlueLayout.lean ====
/-
  Layout operations of the host program read at an index, over literal shapes: each lemma says that a chain of
  reshapes, slices, format changes or a row sum, applied to an array, is one of the specification's named
  re-arrangements of that array. A reshape keeps the row-major position of every element, so each proof names the
  operand index with the same position and leaves the arithmetic to the two positions written as sums.
-/
import proofs.«163290_j86011015070455_2_alg».proof.Proof.Spec
import proofs.«163290_j86011015070455_2_alg».proof.KernelIdeal
import Idealize.ShloMosaic.Lib.Pipeline.Value
import Idealize.ShloMosaic.Lib.ValueIdx
import Idealize.ShloMosaic.PureOps.Ideal.Laws

noncomputable section

open scoped BigOperators

namespace Cert.KernelIdeal.HostGlue

open Cert.KernelIdeal Cert.Energy
open Idealize.ShloMosaic Idealize.ShloMosaic.ValueIdx

/-- At the extended reals a change of float format is the identity. -/
theorem truncf_id {s : Shape} (x : FVec Ideal s .f32) (h : FTy.bits .bf16 < FTy.bits .f32) :
    (truncf .bf16 x h : s.Idx → EReal) = x := rfl

/-- The feature matrix: the argument of shape 128 x 128 x 100 reshaped to 128 x 32 x 400 and then to 4096 x 400.
    Element (r, k) has position 400 r + k in both readings, which is position N of the argument with
    N = 400 r + k, that is its element (N / 12800, N / 100 mod 128, N mod 100). -/
theorem reshape_features (x : S128x128x100.Idx → EReal) (h1 : S128x128x100.ShapeCasts S128x32x400)
    (h2 : S128x32x400.ShapeCasts S4096x400) :
    shapeCast S4096x400 (shapeCast S128x32x400 x h1) h2 = features x := by
  funext p
  have hp0 : (p 0).val < 4096 := (p 0).isLt
  have hp1 : (p 1).val < 400 := (p 1).isLt
  refine (shapeCast_apply _ h2 p (ix3 (⟨(p 0).val / 32, by omega⟩ : Fin 128) (⟨(p 0).val % 32, by omega⟩ : Fin 32)
    (⟨(p 1).val, hp1⟩ : Fin 400)) ?_).trans ?_
  · rw [Shape.rowMajor_val_three, Shape.rowMajor_val_two]
    show ((p 0).val / 32 * 32 + (p 0).val % 32) * 400 + (p 1).val = (p 0).val * 400 + (p 1).val
    omega
  · refine shapeCast_apply x h1 _ _ ?_
    rw [Shape.rowMajor_val_three, Shape.rowMajor_val_three]
    show (((p 0).val * 400 + (p 1).val) / 12800 * 128 + ((p 0).val * 400 + (p 1).val) / 100 % 128) * 100
        + ((p 0).val * 400 + (p 1).val) % 100 = ((p 0).val / 32 * 32 + (p 0).val % 32) * 400 + (p 1).val
    omega

/-- A vector of 1024 numbers reshaped to one row. -/
theorem reshape_asRow (b : S1024.Idx → EReal) (h : S1024.ShapeCasts S1x1024) : shapeCast S1x1024 b h = asRow b := by
  funext p
  have hp0 : (p 0).val < 1 := (p 0).isLt
  refine shapeCast_apply b h p (ix1 (p 1)) ?_
  rw [Shape.rowMajor_val_one, Shape.rowMajor_val_two]
  show (p 1).val = (p 0).val * 1024 + (p 1).val
  omega

/-- A column of 1024 numbers reshaped to one row. -/
theorem reshape_colAsRow (w : S1024x1.Idx → EReal) (h : S1024x1.ShapeCasts S1x1024) :
    shapeCast S1x1024 w h = colAsRow w := by
  funext p
  have hp0 : (p 0).val < 1 := (p 0).isLt
  refine shapeCast_apply w h p (ix2 (p 1) (0 : Fin 1)) ?_
  rw [Shape.rowMajor_val_two, Shape.rowMajor_val_two]
  show (p 1).val * 1 + 0 = (p 0).val * 1024 + (p 1).val
  omega

/-- A single number reshaped to a 1 x 1 array. -/
theorem reshape_asCell (b : S1.Idx → EReal) (h : S1.ShapeCasts S1x1) : shapeCast S1x1 b h = asCell b := by
  funext p
  have hp0 : (p 0).val < 1 := (p 0).isLt
  have hp1 : (p 1).val < 1 := (p 1).isLt
  refine shapeCast_apply b h p (ix1 (0 : Fin 1)) ?_
  rw [Shape.rowMajor_val_one, Shape.rowMajor_val_two]
  show 0 = (p 0).val * 1 + (p 1).val
  omega

/-- The first 400 rows of the 800 x 1024 matrix: the slice from row 0. -/
theorem slice_topHalf (w : S800x1024.Idx → EReal) (h : S800x1024.Slices ![0, 0] S400x1024) :
    extractStridedSlice S400x1024 ![0, 0] w h = topHalf w := by
  funext p
  refine extractStridedSlice_apply _ w h p _ (fun a => ?_)
  match a with
  | ⟨0, _⟩ => exact (Nat.zero_add _).symm
  | ⟨1, _⟩ => exact (Nat.zero_add _).symm

/-- Its last 400 rows: the slice from row 400. -/
theorem slice_bottomHalf (w : S800x1024.Idx → EReal) (h : S800x1024.Slices ![400, 0] S400x1024) :
    extractStridedSlice S400x1024 ![400, 0] w h = bottomHalf w := by
  funext p
  refine extractStridedSlice_apply _ w h p _ (fun a => ?_)
  match a with
  | ⟨0, _⟩ => rfl
  | ⟨1, _⟩ => exact (Nat.zero_add _).symm

/-- A matrix of 4096 rows of 1024 reshaped to 128 entries of 32 rows: row 32 b + i becomes row i of entry b. -/
theorem reshape_byEntry (P : Fin 4096 → Fin 1024 → EReal) (h : S4096x1024.ShapeCasts S128x32x1024) :
    shapeCast S128x32x1024 (fun y : S4096x1024.Idx => P (y 0) (y 1)) h = byEntry P := by
  funext q
  have hq0 : (q 0).val < 128 := (q 0).isLt
  have hq1 : (q 1).val < 32 := (q 1).isLt
  refine shapeCast_apply _ h q (ix2 (rowOf (q 0) (q 1)) (q 2)) ?_
  rw [Shape.rowMajor_val_two, Shape.rowMajor_val_three]
  rfl

/-- The 4096 x 1 column of per-row values reshaped to 128 x 32, summed along its rows of 32 from the initial value
    zero, and laid out as 128 x 1 x 1: entry b holds the sum of the 32 values of rows 32 b + n. -/
theorem rowSums (T : Fin 4096 → EReal) (h1 : S4096x1.ShapeCasts S128x32) (hr : S128x32.ReducesTo [1] S128)
    (hu : 0 < S_.numel) (hb : S128.BroadcastsInDim S128x1 (![0] : Fin 1 → Fin S128x1.rank))
    (h2 : S128x1.ShapeCasts S128x1x1) :
    shapeCast S128x1x1 (broadcastInDim S128x1 ![0] hb
      (Host.reduceAdd (F := Ideal) (φ := .f32) (shapeCast S128x32 (fun y : S4096x1.Idx => T (y 0)) h1)
        (constant (F := Ideal) S_ .f32 0x00000000#32) hr hu)) h2
      = fun q : S128x1x1.Idx => ∑ n : Fin 32, T (rowOf (q 0) n) := by
  funext q
  have hq0 : (q 0).val < 128 := (q 0).isLt
  have hq1 : (q 1).val < 1 := (q 1).isLt
  have hq2 : (q 2).val < 1 := (q 2).isLt
  refine (shapeCast_apply _ h2 q (ix2 (q 0) (0 : Fin 1)) ?_).trans ?_
  · rw [Shape.rowMajor_val_two, Shape.rowMajor_val_three]
    show (q 0).val * 1 + 0 = ((q 0).val * 1 + (q 1).val) * 1 + (q 2).val
    omega
  refine (broadcastInDim_apply _ hb _ (ix2 (q 0) (0 : Fin 1)) (ix1 (q 0)) (fun a => match a with
    | ⟨0, _⟩ => by show (q 0).val = if (128 : Nat) = 1 then 0 else (q 0).val; rw [if_neg (by decide)])).trans ?_
  simp only [Host.reduceAdd, Ideal.hostReduceAdd_def]
  rw [Ideal.hostReduceAdd_single hr (by decide)]
  refine (congrArg (· + _) Ideal.ofBits_zero_f32).trans ((zero_add _).trans ?_)
  refine Finset.sum_congr rfl fun n _ => ?_
  refine shapeCast_apply _ h1 _ (ix2 (rowOf (q 0) n) (0 : Fin 1)) ?_
  rw [Shape.rowMajor_val_two, Shape.rowMajor_val_two]
  show ((q 0).val * 32 + n.val) * 1 + 0 = (q 0).val * 32 + n.val
  omega

/-- The 128 x 1 x 1 result reshaped to 128 x 1. -/
theorem reshape_result (R : S128x1x1.Idx → EReal) (h : S128x1x1.ShapeCasts S128x1) :
    shapeCast S128x1 R h = fun q : S128x1.Idx => R (ix3 (q 0) (0 : Fin 1) (0 : Fin 1)) := by
  funext q
  have hq1 : (q 1).val < 1 := (q 1).isLt
  refine shapeCast_apply R h q _ ?_
  rw [Shape.rowMajor_val_three, Shape.rowMajor_val_two]
  show ((q 0).val * 1 + 0) * 1 + 0 = (q 0).val * 1 + (q 1).val
  omega

end Cert.KernelIdeal.HostGlue

end
-- ==== Proof.HostGlueEntry0.lean ====
/-
  The nine arrays the first kernel call reads, as it finds them: each is written by the host operations before it
  from one argument array — the features by two reshapes, the two dense weight matrices by a change of float format
  (the identity on extended reals), the two halves of the interaction layer's first weight matrix by a slice and a
  change of format, the biases and the last layer's column by a reshape to one row, the last bias by a reshape to a
  1 x 1 array. Each statement names the array as the specification's re-arrangement of the launch contents.
-/
import proofs.«163290_j86011015070455_2_alg».proof.Proof.HostGlueLayout
import proofs.«163290_j86011015070455_2_alg».proof.Proof.Gen.KernelIdeal.Frame

noncomputable section

open scoped BigOperators

namespace Cert.KernelIdeal.HostGlue

open Cert.KernelIdeal Cert.KernelIdeal.Gen Cert.Energy
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The features: the first argument reshaped twice. -/
theorem entry0_features :
    (V1 m ρ c main_v1 : S4096x400.Idx → EReal) = features (m ((c : Thread nD τ).loc main_arg0)) := by
  have e : (V1 m ρ c main_v1 : S4096x400.Idx → EReal)
      = shapeCast S4096x400 (shapeCast S128x32x400 (m ((c : Thread nD τ).loc main_arg0) : S128x128x100.Idx → EReal)
          shapeCasts_S128x128x100_S128x32x400) shapeCasts_S128x32x400_S4096x400 := by
    dsimp only [Gen.V1, Gen.W1, Gen.hostOps0]; after_results; all_goals rfl
  exact e.trans (reshape_features _ _ _)

/-- The trajectory perceptron's first weight matrix: the format change is the identity. -/
theorem entry0_w1 : (V1 m ρ c main_v2 : S400x1024.Idx → EReal) = m ((c : Thread nD τ).loc main_arg2) := by
  have e : (V1 m ρ c main_v2 : S400x1024.Idx → EReal)
      = (truncf .bf16 (m ((c : Thread nD τ).loc main_arg2) : FVec Ideal S400x1024 .f32) bitsLt_bf16_f32 : FVec Ideal S400x1024 .bf16) := by
    dsimp only [Gen.V1, Gen.W1, Gen.hostOps0]; after_results; all_goals rfl
  exact e.trans (truncf_id _ _)

/-- Its first bias as a row. -/
theorem entry0_b1 : (V1 m ρ c main_v9 : S1x1024.Idx → EReal) = asRow (m ((c : Thread nD τ).loc main_arg3)) := by
  have e : (V1 m ρ c main_v9 : S1x1024.Idx → EReal)
      = shapeCast S1x1024 (m ((c : Thread nD τ).loc main_arg3) : S1024.Idx → EReal) shapeCasts_S1024_S1x1024 := by
    dsimp only [Gen.V1, Gen.W1, Gen.hostOps0]; after_results; all_goals rfl
  exact e.trans (reshape_asRow _ _)

/-- Its second weight matrix. -/
theorem entry0_w2 : (V1 m ρ c main_v3 : S1024x1024.Idx → EReal) = m ((c : Thread nD τ).loc main_arg4) := by
  have e : (V1 m ρ c main_v3 : S1024x1024.Idx → EReal)
      = (truncf .bf16 (m ((c : Thread nD τ).loc main_arg4) : FVec Ideal S1024x1024 .f32) bitsLt_bf16_f32 : FVec Ideal S1024x1024 .bf16) := by
    dsimp only [Gen.V1, Gen.W1, Gen.hostOps0]; after_results; all_goals rfl
  exact e.trans (truncf_id _ _)

/-- Its second bias as a row. -/
theorem entry0_b2 : (V1 m ρ c main_v10 : S1x1024.Idx → EReal) = asRow (m ((c : Thread nD τ).loc main_arg5)) := by
  have e : (V1 m ρ c main_v10 : S1x1024.Idx → EReal)
      = shapeCast S1x1024 (m ((c : Thread nD τ).loc main_arg5) : S1024.Idx → EReal) shapeCasts_S1024_S1x1024 := by
    dsimp only [Gen.V1, Gen.W1, Gen.hostOps0]; after_results; all_goals rfl
  exact e.trans (reshape_asRow _ _)

/-- Its last layer's column of weights as a row. -/
theorem entry0_w3 : (V1 m ρ c main_v11 : S1x1024.Idx → EReal) = colAsRow (m ((c : Thread nD τ).loc main_arg6)) := by
  have e : (V1 m ρ c main_v11 : S1x1024.Idx → EReal)
      = shapeCast S1x1024 (m ((c : Thread nD τ).loc main_arg6) : S1024x1.Idx → EReal) shapeCasts_S1024x1_S1x1024 := by
    dsimp only [Gen.V1, Gen.W1, Gen.hostOps0]; after_results; all_goals rfl
  exact e.trans (reshape_colAsRow _ _)

/-- Its last bias as a 1 x 1 array. -/
theorem entry0_b3 : (V1 m ρ c main_v12 : S1x1.Idx → EReal) = asCell (m ((c : Thread nD τ).loc main_arg7)) := by
  have e : (V1 m ρ c main_v12 : S1x1.Idx → EReal)
      = shapeCast S1x1 (m ((c : Thread nD τ).loc main_arg7) : S1.Idx → EReal) shapeCasts_S1_S1x1 := by
    dsimp only [Gen.V1, Gen.W1, Gen.hostOps0]; after_results; all_goals rfl
  exact e.trans (reshape_asCell _ _)

/-- The first agent's half of the interaction perceptron's first weight matrix: rows 0 to 399. -/
theorem entry0_top : (V1 m ρ c main_v5 : S400x1024.Idx → EReal) = topHalf (m ((c : Thread nD τ).loc main_arg8)) := by
  have e : (V1 m ρ c main_v5 : S400x1024.Idx → EReal)
      = (truncf .bf16 (extractStridedSlice S400x1024 ![0, 0] (m ((c : Thread nD τ).loc main_arg8) : FVec Ideal S800x1024 .f32)
          slices_S800x1024_S400x1024_0_0 : FVec Ideal S400x1024 .f32) bitsLt_bf16_f32 : FVec Ideal S400x1024 .bf16) := by
    dsimp only [Gen.V1, Gen.W1, Gen.hostOps0]; after_results; all_goals rfl
  exact e.trans ((truncf_id _ _).trans (slice_topHalf _ _))

/-- The second agent's half: rows 400 to 799. -/
theorem entry0_bottom : (V1 m ρ c main_v7 : S400x1024.Idx → EReal) = bottomHalf (m ((c : Thread nD τ).loc main_arg8)) := by
  have e : (V1 m ρ c main_v7 : S400x1024.Idx → EReal)
      = (truncf .bf16 (extractStridedSlice S400x1024 ![400, 0] (m ((c : Thread nD τ).loc main_arg8) : FVec Ideal S800x1024 .f32)
          slices_S800x1024_S400x1024_400_0 : FVec Ideal S400x1024 .f32) bitsLt_bf16_f32 : FVec Ideal S400x1024 .bf16) := by
    dsimp only [Gen.V1, Gen.W1, Gen.hostOps0]; after_results; all_goals rfl
  exact e.trans ((truncf_id _ _).trans (slice_bottomHalf _ _))

end Cert.KernelIdeal.HostGlue

end
-- ==== Proof.HostGlueEntry1.lean ====
/-
  The nine arrays the second kernel call reads, as it finds them. Three come from the first call's results through
  the host operations between the two calls: its two half-layer matrices reshaped entry by entry, and its column of
  per-row trajectory energies reshaped to 128 x 32, summed along each row of 32 from zero, and laid out as
  128 x 1 x 1. These are stated from what the first call leaves in its result arrays. The other six were written
  before the first call (or are an argument) and nothing since has written them.
-/
import proofs.«163290_j86011015070455_2_alg».proof.Proof.HostGlueLayout
import proofs.«163290_j86011015070455_2_alg».proof.Proof.Gen.KernelIdeal.Frame

noncomputable section

open scoped BigOperators

namespace Cert.KernelIdeal.HostGlue

open Cert.KernelIdeal Cert.KernelIdeal.Gen Cert.Energy
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The first agent's half-layer, entry by entry: the first call's second result reshaped. -/
theorem entry1_firstHalf (P : Fin 4096 → Fin 1024 → EReal)
    (hA : ((dat0 (V1 m ρ) c).arrAt 10 cfg0.N : S4096x1024.Idx → EReal) = fun y => P (y 0) (y 1)) :
    (V3 m ρ c main_v22 : S128x32x1024.Idx → EReal) = byEntry P := by
  have e : (V3 m ρ c main_v22 : S128x32x1024.Idx → EReal)
      = shapeCast S128x32x1024 (W2 m ρ c (Proc.devRef .tc main_v17_1) : S4096x1024.Idx → EReal)
          shapeCasts_S4096x1024_S128x32x1024 := by
    dsimp only [Gen.V3, Gen.W3, Gen.hostOps1]; after_results; all_goals rfl
  have w : (W2 m ρ c (Proc.devRef .tc main_v17_1) : S4096x1024.Idx → EReal) = fun y => P (y 0) (y 1) :=
    (W2_arr m ρ c 10).trans hA
  rw [e, w]
  exact reshape_byEntry P _

/-- The second agent's half-layer, entry by entry: the first call's third result reshaped. -/
theorem entry1_secondHalf (P : Fin 4096 → Fin 1024 → EReal)
    (hA : ((dat0 (V1 m ρ) c).arrAt 11 cfg0.N : S4096x1024.Idx → EReal) = fun y => P (y 0) (y 1)) :
    (V3 m ρ c main_v23 : S128x32x1024.Idx → EReal) = byEntry P := by
  have e : (V3 m ρ c main_v23 : S128x32x1024.Idx → EReal)
      = shapeCast S128x32x1024 (W2 m ρ c (Proc.devRef .tc main_v17_2) : S4096x1024.Idx → EReal)
          shapeCasts_S4096x1024_S128x32x1024 := by
    dsimp only [Gen.V3, Gen.W3, Gen.hostOps1]; after_results; all_goals rfl
  have w : (W2 m ρ c (Proc.devRef .tc main_v17_2) : S4096x1024.Idx → EReal) = fun y => P (y 0) (y 1) :=
    (W2_arr m ρ c 11).trans hA
  rw [e, w]
  exact reshape_byEntry P _

/-- The summed trajectory energy of each entry: the first call's first result, a column of one value per row,
    summed over the 32 rows of each entry. -/
theorem entry1_trajectory (T : Fin 4096 → EReal)
    (hT : ((dat0 (V1 m ρ) c).arrAt 9 cfg0.N : S4096x1.Idx → EReal) = fun y => T (y 0)) :
    (V3 m ρ c main_v21 : S128x1x1.Idx → EReal) = fun q => ∑ n : Fin 32, T (rowOf (q 0) n) := by
  have e : (V3 m ρ c main_v21 : S128x1x1.Idx → EReal)
      = shapeCast S128x1x1 (broadcastInDim S128x1 ![0] bcast_S128_S128x1_0
          (Host.reduceAdd (F := Ideal) (φ := .f32)
            (shapeCast S128x32 (W2 m ρ c (Proc.devRef .tc main_v17_0) : S4096x1.Idx → EReal) shapeCasts_S4096x1_S128x32)
            (constant (F := Ideal) S_ .f32 0x00000000#32) reducesTo_S128x32_S128_d1 h_S_)) shapeCasts_S128x1_S128x1x1 := by
    dsimp only [Gen.V3, Gen.W3, Gen.hostOps1]; after_results; all_goals rfl
  have w : (W2 m ρ c (Proc.devRef .tc main_v17_0) : S4096x1.Idx → EReal) = fun y => T (y 0) :=
    (W2_arr m ρ c 9).trans hT
  rw [e, w]
  exact rowSums T _ _ _ _ _

/-- The edge weights: the second argument, which no host operation and no call writes. -/
theorem entry1_edges : (V3 m ρ c main_arg1 : S128x32x32.Idx → EReal) = m ((c : Thread nD τ).loc main_arg1) := by
  have e3 : W3 m ρ c (Proc.devRef .tc main_arg1) = W2 m ρ c (Proc.devRef .tc main_arg1) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_arg1) = W1 m ρ c (Proc.devRef .tc main_arg1) := W2_of_ne m ρ c main_arg1 (by decide)
  have e1 : W1 m ρ c (Proc.devRef .tc main_arg1) = W0 m ρ c (Proc.devRef .tc main_arg1) :=
    StableHlo.after_of_forall_not_mem _ _ (List.forall_iff_forall_mem.mp (by
      simp only [hostOps0, List.Forall, StableHlo.nullary_writes, StableHlo.unary_writes, StableHlo.binary_writes,
        StableHlo.reshape_writes, Finset.mem_singleton]
      repeat' apply And.intro
      all_goals exact StableHlo.devRef_ne_of_ne (by decide)))
  exact (e3.trans e2).trans e1

/-- The interaction perceptron's first bias as a row. -/
theorem entry1_b1 : (V3 m ρ c main_v13 : S1x1024.Idx → EReal) = asRow (m ((c : Thread nD τ).loc main_arg9)) := by
  have e3 : W3 m ρ c (Proc.devRef .tc main_v13) = W2 m ρ c (Proc.devRef .tc main_v13) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_v13) = W1 m ρ c (Proc.devRef .tc main_v13) := W2_of_ne m ρ c main_v13 (by decide)
  have e1 : (W1 m ρ c (Proc.devRef .tc main_v13) : S1x1024.Idx → EReal)
      = shapeCast S1x1024 (m ((c : Thread nD τ).loc main_arg9) : S1024.Idx → EReal) shapeCasts_S1024_S1x1024 := by
    dsimp only [Gen.W1, Gen.hostOps0]; after_results; all_goals rfl
  exact (e3.trans e2).trans (e1.trans (reshape_asRow _ _))

/-- Its second weight matrix: the format change is the identity. -/
theorem entry1_w2 : (V3 m ρ c main_v8 : S1024x1024.Idx → EReal) = m ((c : Thread nD τ).loc main_arg10) := by
  have e3 : W3 m ρ c (Proc.devRef .tc main_v8) = W2 m ρ c (Proc.devRef .tc main_v8) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_v8) = W1 m ρ c (Proc.devRef .tc main_v8) := W2_of_ne m ρ c main_v8 (by decide)
  have e1 : (W1 m ρ c (Proc.devRef .tc main_v8) : S1024x1024.Idx → EReal)
      = (truncf .bf16 (m ((c : Thread nD τ).loc main_arg10) : FVec Ideal S1024x1024 .f32) bitsLt_bf16_f32 : FVec Ideal S1024x1024 .bf16) := by
    dsimp only [Gen.W1, Gen.hostOps0]; after_results; all_goals rfl
  exact (e3.trans e2).trans (e1.trans (truncf_id _ _))

/-- Its second bias as a row. -/
theorem entry1_b2 : (V3 m ρ c main_v14 : S1x1024.Idx → EReal) = asRow (m ((c : Thread nD τ).loc main_arg11)) := by
  have e3 : W3 m ρ c (Proc.devRef .tc main_v14) = W2 m ρ c (Proc.devRef .tc main_v14) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_v14) = W1 m ρ c (Proc.devRef .tc main_v14) := W2_of_ne m ρ c main_v14 (by decide)
  have e1 : (W1 m ρ c (Proc.devRef .tc main_v14) : S1x1024.Idx → EReal)
      = shapeCast S1x1024 (m ((c : Thread nD τ).loc main_arg11) : S1024.Idx → EReal) shapeCasts_S1024_S1x1024 := by
    dsimp only [Gen.W1, Gen.hostOps0]; after_results; all_goals rfl
  exact (e3.trans e2).trans (e1.trans (reshape_asRow _ _))

/-- Its last layer's column of weights as a row. -/
theorem entry1_w3 : (V3 m ρ c main_v15 : S1x1024.Idx → EReal) = colAsRow (m ((c : Thread nD τ).loc main_arg12)) := by
  have e3 : W3 m ρ c (Proc.devRef .tc main_v15) = W2 m ρ c (Proc.devRef .tc main_v15) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_v15) = W1 m ρ c (Proc.devRef .tc main_v15) := W2_of_ne m ρ c main_v15 (by decide)
  have e1 : (W1 m ρ c (Proc.devRef .tc main_v15) : S1x1024.Idx → EReal)
      = shapeCast S1x1024 (m ((c : Thread nD τ).loc main_arg12) : S1024x1.Idx → EReal) shapeCasts_S1024x1_S1x1024 := by
    dsimp only [Gen.W1, Gen.hostOps0]; after_results; all_goals rfl
  exact (e3.trans e2).trans (e1.trans (reshape_colAsRow _ _))

/-- Its last bias as a 1 x 1 array. -/
theorem entry1_b3 : (V3 m ρ c main_v16 : S1x1.Idx → EReal) = asCell (m ((c : Thread nD τ).loc main_arg13)) := by
  have e3 : W3 m ρ c (Proc.devRef .tc main_v16) = W2 m ρ c (Proc.devRef .tc main_v16) :=
    StableHlo.after_of_forall_not_mem _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  have e2 : W2 m ρ c (Proc.devRef .tc main_v16) = W1 m ρ c (Proc.devRef .tc main_v16) := W2_of_ne m ρ c main_v16 (by decide)
  have e1 : (W1 m ρ c (Proc.devRef .tc main_v16) : S1x1.Idx → EReal)
      = shapeCast S1x1 (m ((c : Thread nD τ).loc main_arg13) : S1.Idx → EReal) shapeCasts_S1_S1x1 := by
    dsimp only [Gen.W1, Gen.hostOps0]; after_results; all_goals rfl
  exact (e3.trans e2).trans (e1.trans (reshape_asCell _ _))

end Cert.KernelIdeal.HostGlue

end
-- ==== Proof.HostGlueExit.lean ====
/-
  The result: the second kernel call's output of shape 128 x 1 x 1 reshaped to 128 x 1 by the one host operation
  after it, so entry b of the result is the call's output at (b, 0, 0).
-/
import proofs.«163290_j86011015070455_2_alg».proof.Proof.HostGlueLayout
import proofs.«163290_j86011015070455_2_alg».proof.Proof.Gen.KernelIdeal.Frame

noncomputable section

open scoped BigOperators

namespace Cert.KernelIdeal.HostGlue

open Cert.KernelIdeal Cert.KernelIdeal.Gen Cert.Energy
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The program's result array at the end of the run. -/
theorem exit_result :
    (W5 m ρ c (Proc.devRef .tc main_v25) : S128x1.Idx → EReal)
      = fun q => ((dat1 (V3 m ρ) c).arrAt 9 cfg1.N : S128x1x1.Idx → EReal) (ix3 (q 0) (0 : Fin 1) (0 : Fin 1)) := by
  have e : (W5 m ρ c (Proc.devRef .tc main_v25) : S128x1.Idx → EReal)
      = shapeCast S128x1 (W4 m ρ c (Proc.devRef .tc main_v24) : S128x1x1.Idx → EReal) shapeCasts_S128x1x1_S128x1 := by
    dsimp only [Gen.W5, Gen.hostOps2]; after_results; all_goals rfl
  have w : (W4 m ρ c (Proc.devRef .tc main_v24) : S128x1x1.Idx → EReal) = (dat1 (V3 m ρ) c).arrAt 9 cfg1.N :=
    W4_arr m ρ c 9
  rw [e, w]
  exact reshape_result _ _

end Cert.KernelIdeal.HostGlue

end
-- ==== Proof.KernelScore.lean ====
/-
  The idealized kernel's result, as one function of its fourteen argument arrays.

  Following the buffers through the program: the host operations before the first region present the arguments as
  the network's operands (the feature matrix, the bias rows, the last layers' columns as rows, the two halves of the
  interaction perceptron's first weight matrix); the first region computes every row's trajectory energy and the two
  half-layers; the host operations between the regions sum each entry's 32 trajectory energies and lay the half-layers
  out entry by entry; the second region computes every entry's score from them; the last host operation only drops a
  unit axis. Composed, the result buffer holds `score` of the arguments.
-/
import proofs.«163290_j86011015070455_2_alg».proof.Proof.WholeRun
import proofs.«163290_j86011015070455_2_alg».proof.Proof.Stage1Blocks
import proofs.«163290_j86011015070455_2_alg».proof.Proof.Stage2Array
import proofs.«163290_j86011015070455_2_alg».proof.Proof.HostGlueEntry0
import proofs.«163290_j86011015070455_2_alg».proof.Proof.HostGlueEntry1
import proofs.«163290_j86011015070455_2_alg».proof.Proof.HostGlueExit

set_option maxRecDepth 16384

noncomputable section

open scoped BigOperators

namespace Cert.KernelIdeal.KernelScore

open Idealize.ShloMosaic Idealize.ShloMosaic.TcCoe Idealize.ShloMosaic.ValueIdx Idealize.SL.Sem
open Cert.KernelIdeal Cert.KernelIdeal.Gen Cert.Energy

variable (m : (ℓ : Loc nD τ sig) → Buf (Elt Ideal) ℓ) (ρ : Dev nD → PrngReg) (c : Dev nD)

/-- The result buffer at the last boundary of the program is the score of the argument arrays. -/
theorem result_is_score :
    (W5 m ρ c (Proc.devRef .tc main_v25) : S128x1.Idx → EReal)
      = score (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) := by
  rw [HostGlue.exit_result m ρ c, Stage2.region1_out (V3 m ρ) c]
  refine funext fun (q : S128x1.Idx) => ?_
  obtain ⟨b, w, rfl⟩ : ∃ (b : Fin 128) (w : Fin 1), q = ix2 b w := ⟨q 0, q 1, eq_ix2 q⟩
  show Stage2.outArray (V3 m ρ) c (ix3 b (0 : Fin 1) (0 : Fin 1)) = _
  rw [Stage2.outArray_apply,
    HostGlue.entry1_firstHalf m ρ c (proj (V1 m ρ c main_v1) (V1 m ρ c main_v5)) (Stage1.half1_final (V1 m ρ) c),
    HostGlue.entry1_secondHalf m ρ c (proj (V1 m ρ c main_v1) (V1 m ρ c main_v7)) (Stage1.half2_final (V1 m ρ) c),
    HostGlue.entry1_trajectory m ρ c
      (trajRow (V1 m ρ c main_v1) (V1 m ρ c main_v2) (V1 m ρ c main_v9) (V1 m ρ c main_v3) (V1 m ρ c main_v10)
        (V1 m ρ c main_v11) (V1 m ρ c main_v12)) (Stage1.traj_final (V1 m ρ) c),
    HostGlue.entry1_edges m ρ c, HostGlue.entry1_b1 m ρ c, HostGlue.entry1_w2 m ρ c, HostGlue.entry1_b2 m ρ c,
    HostGlue.entry1_w3 m ρ c, HostGlue.entry1_b3 m ρ c,
    HostGlue.entry0_features m ρ c, HostGlue.entry0_w1 m ρ c, HostGlue.entry0_b1 m ρ c, HostGlue.entry0_w2 m ρ c,
    HostGlue.entry0_b2 m ρ c, HostGlue.entry0_w3 m ρ c, HostGlue.entry0_b3 m ρ c, HostGlue.entry0_top m ρ c,
    HostGlue.entry0_bottom m ρ c]
  rfl

end Cert.KernelIdeal.KernelScore

end
-- ==== Proof.RefScoreLaws.lean ====
/-
  Finite sums in a commutative monoid, with no program in sight: the three regroupings that carry the
  reference's sums onto the specification's.

  * A sum over 800 positions is the sum over the first 400 plus the sum over the last 400 (position 400 + k).
    This is what turns a dense layer applied to two feature rows laid side by side into the sum of two
    half-layers, one per row.
  * A sum over the entries of a 128 x 32 x 32 array whose first coordinate is a given b is the iterated sum
    over the second and the third coordinate: the reduction over the two agent axes, read at entry b.
  * The initial value of such a reduction, when it is zero, disappears.

  Only associativity and commutativity of addition are used.
-/
import Idealize.ShloMosaic.PureOps.Ideal
import Idealize.ShloMosaic.PureOps.Ideal.Laws
import Idealize.ShloMosaic.Lib.ValueIdx

noncomputable section

open scoped BigOperators

namespace Cert.ReferenceIdeal.RefScore

open Idealize.ShloMosaic Idealize.ShloMosaic.ValueIdx

/-- A sum over 800 positions: the first 400 positions, then the last 400. -/
theorem sum_split_800 {M : Type*} [AddCommMonoid M] (f : Fin 800 → M) :
    ∑ k : Fin 800, f k
      = (∑ k : Fin 400, f ⟨k.val, by omega⟩) + ∑ k : Fin 400, f ⟨400 + k.val, by omega⟩ :=
  Fin.sum_univ_add (a := 400) (b := 400) f

/-- The sum over the two agent axes of a 128 x 32 x 32 array, read at entry `b`: the initial value plus the
    iterated sum over the second and third coordinates, the first held at `b`. The entries that reduce to `b`
    are exactly those whose first coordinate is `b`, and they are listed once each by the pairs of the other
    two coordinates. -/
theorem hostReduceAdd_pairs (h : (⟨3, ![128, 32, 32]⟩ : Shape).ReducesTo [1, 2] ⟨1, ![128]⟩)
    (x : (⟨3, ![128, 32, 32]⟩ : Shape).Idx → EReal) (init : EReal) (b : Fin 128) :
    Ideal.hostReduceAdd h x init (ix1 b) = init + ∑ i : Fin 32, ∑ j : Fin 32, x (ix3 b i j) := by
  unfold Ideal.hostReduceAdd
  refine congrArg (init + ·) ?_
  -- the first coordinate of an entry is what the reduction keeps
  have hkeep : ∀ e : (⟨3, ![128, 32, 32]⟩ : Shape).Idx, ((h.drop e 0 : Fin 128) : Nat) = ((e 0 : Fin 128) : Nat) :=
    fun e => h.drop_apply_val_of_eq e 0 0
  symm
  rw [← Fintype.sum_prod_type' (f := fun i j : Fin 32 => x (ix3 b i j))]
  refine Finset.sum_bij (fun p _ => ix3 b p.1 p.2) ?_ ?_ ?_ ?_
  · intro p _
    refine Finset.mem_filter.2 ⟨Finset.mem_univ _, ?_⟩
    funext a
    match a with
    | ⟨0, _⟩ => exact Fin.ext (hkeep (ix3 b p.1 p.2))
  · intro p _ q _ hpq
    exact Prod.ext (congrFun hpq 1) (congrFun hpq 2)
  · intro e he
    have hd : h.drop e = ix1 b := (Finset.mem_filter.1 he).2
    have hb : (e 0 : Fin 128) = b := Fin.ext ((hkeep e).symm.trans (congrArg Fin.val (congrFun hd 0)))
    refine ⟨((e 1 : Fin 32), (e 2 : Fin 32)), Finset.mem_univ _, ?_⟩
    have := (eq_ix3 e).symm
    rw [hb] at this
    exact this
  · intro p _
    rfl

/-- A reduction that starts from zero is the bare sum. -/
theorem zero_add_sum (s : EReal) : (0 : EReal) + s = s := zero_add s

end Cert.ReferenceIdeal.RefScore

end
-- ==== Proof.RefScoreTraj.lean ====
/-
  The trajectory branch of the reference, read entry by entry.

  The reference flattens the 128 x 128 x 100 argument to 4096 feature rows of 400 numbers (two changes of
  shape that keep the row-major order, so row r, position k is the argument's element number 400 r + k), runs
  every row through the three-layer perceptron (a dense layer is the sum over the contracted position of
  feature times weight, a bias is a row repeated down the 4096 rows, the rectifier is the maximum with a
  zero repeated everywhere), lays the 4096 energies out as 128 entries of 32 agents (row 32 b + n is agent n of
  entry b) and sums each entry's 32 energies starting from zero. Each step is read at an index and the
  result is the specification's summed trajectory energy of the entry.
-/
import proofs.«163290_j86011015070455_2_alg».proof.Proof.Spec
import proofs.«163290_j86011015070455_2_alg».proof.Proof.Gen.ReferenceIdeal.Read
import proofs.«163290_j86011015070455_2_alg».proof.Proof.RefScoreLaws

noncomputable section

open scoped BigOperators

namespace Cert.ReferenceIdeal.RefScore

open Cert.ReferenceIdeal Cert.ReferenceIdeal.Gen Cert.ReferenceIdeal.Read Cert.Energy
open Idealize.ShloMosaic Idealize.ShloMosaic.ValueIdx

/-- The argument arrays' types, by shape. -/
abbrev T128x128x100 : Type := (⟨S128x128x100, .f32⟩ : BufTy).Contents (Elt Ideal)
abbrev T128x32x32 : Type := (⟨S128x32x32, .f32⟩ : BufTy).Contents (Elt Ideal)
abbrev T400x1024 : Type := (⟨S400x1024, .f32⟩ : BufTy).Contents (Elt Ideal)
abbrev T800x1024 : Type := (⟨S800x1024, .f32⟩ : BufTy).Contents (Elt Ideal)
abbrev T1024 : Type := (⟨S1024, .f32⟩ : BufTy).Contents (Elt Ideal)
abbrev T1024x1024 : Type := (⟨S1024x1024, .f32⟩ : BufTy).Contents (Elt Ideal)
abbrev T1024x1 : Type := (⟨S1024x1, .f32⟩ : BufTy).Contents (Elt Ideal)
abbrev T1 : Type := (⟨S1, .f32⟩ : BufTy).Contents (Elt Ideal)

/-- The flattened features are the specification's feature matrix: both read the argument's element number
    400 r + k, split into the argument's three coordinates. -/
theorem v1_eq (x0 : T128x128x100) : val_main_v1 (F := Ideal) x0 = features x0 := by
  funext p
  obtain ⟨r, k, rfl⟩ : ∃ (r : Fin 4096) (k : Fin 400), p = ix2 r k := ⟨p 0, p 1, eq_ix2 p⟩
  rw [val_main_v1_apply, val_main_v0_apply]
  unfold features
  refine congrArg x0 ?_
  have hr := r.isLt
  have hk := k.isLt
  funext a
  match a with
  | ⟨0, _⟩ =>
    refine Fin.ext ?_
    show ((((r.val * 400 + k.val) / 12800 * 32 + (r.val * 400 + k.val) / 400 % 32) * 4
      + (r.val * 400 + k.val) / 100 % 4) * 100 + (r.val * 400 + k.val) % 100) / 12800
      = (r.val * 400 + k.val) / 12800
    omega
  | ⟨1, _⟩ =>
    refine Fin.ext ?_
    show ((((r.val * 400 + k.val) / 12800 * 32 + (r.val * 400 + k.val) / 400 % 32) * 4
      + (r.val * 400 + k.val) / 100 % 4) * 100 + (r.val * 400 + k.val) % 100) / 100 % 128
      = (r.val * 400 + k.val) / 100 % 128
    omega
  | ⟨2, _⟩ =>
    refine Fin.ext ?_
    show ((((r.val * 400 + k.val) / 12800 * 32 + (r.val * 400 + k.val) / 400 % 32) * 4
      + (r.val * 400 + k.val) / 100 % 4) * 100 + (r.val * 400 + k.val) % 100) % 100
      = (r.val * 400 + k.val) % 100
    omega

/-- The zero the first rectifier compares with. -/
theorem relu0_zero (i : S4096x1024.Idx) : val_main_call0_v0 (F := Ideal) i = 0 := by
  rw [val_main_call0_v0_apply, val_main_call0_cst_apply]
  exact Ideal.ofBits_zero_f32

/-- The zero the second rectifier compares with. -/
theorem relu1_zero (i : S4096x1024.Idx) : val_main_call1_v0 (F := Ideal) i = 0 := by
  rw [val_main_call1_v0_apply, val_main_call1_cst_apply]
  exact Ideal.ofBits_zero_f32

/-- First layer of the trajectory perceptron at row `r`, unit `u`, rectified. -/
theorem v6_at (x0 : T128x128x100) (x2 : T400x1024) (x3 : T1024) (r : Fin 4096) (u : Fin 1024) :
    val_main_v6 (F := Ideal) x0 x2 x3 (ix2 r u)
      = relu ((∑ k : Fin 400, features x0 (ix2 r k) * x2 (ix2 k u)) + asRow x3 (ix2 0 u)) := by
  rw [val_main_v6_apply, val_main_v5_apply, val_main_v2_apply, val_main_v4_apply, val_main_v3_apply,
    relu0_zero, v1_eq]
  have e1 : ∀ k : Fin 400, lidx_main_v2 (ix2 r u) k = ix2 r k := fun k =>
    funext fun a => by match a with | ⟨0, _⟩ => rfl | ⟨1, _⟩ => rfl
  have e2 : ∀ k : Fin 400, ridx_main_v2 (ix2 r u) k = ix2 k u := fun k =>
    funext fun a => by match a with | ⟨0, _⟩ => rfl | ⟨1, _⟩ => rfl
  have e3 : idx_main_v3 (idx_main_v4 (ix2 r u)) = ix1 u :=
    funext fun a => by match a with | ⟨0, _⟩ => rfl
  simp only [e1, e2, e3]
  rfl

/-- Second layer at row `r`, unit `v`, rectified, over any first layer `H` the reference's agrees with. -/
theorem v11_at (x0 : T128x128x100) (x2 : T400x1024) (x3 : T1024) (x4 : T1024x1024) (x5 : T1024)
    (r : Fin 4096) (v : Fin 1024) :
    val_main_v11 (F := Ideal) x0 x2 x3 x4 x5 (ix2 r v)
      = relu ((∑ u : Fin 1024, val_main_v6 (F := Ideal) x0 x2 x3 (ix2 r u) * x4 (ix2 u v)) + asRow x5 (ix2 0 v)) := by
  rw [val_main_v11_apply, val_main_v10_apply, val_main_v7_apply, val_main_v9_apply, val_main_v8_apply,
    relu1_zero]
  have e1 : ∀ k : Fin 1024, lidx_main_v7 (ix2 r v) k = ix2 r k := fun k =>
    funext fun a => by match a with | ⟨0, _⟩ => rfl | ⟨1, _⟩ => rfl
  have e2 : ∀ k : Fin 1024, ridx_main_v7 (ix2 r v) k = ix2 k v := fun k =>
    funext fun a => by match a with | ⟨0, _⟩ => rfl | ⟨1, _⟩ => rfl
  have e3 : idx_main_v8 (idx_main_v9 (ix2 r v)) = ix1 v :=
    funext fun a => by match a with | ⟨0, _⟩ => rfl
  simp only [e1, e2, e3]
  rfl

/-- The trajectory energy of row `r`: the reference's third layer is the specification's row energy. -/
theorem v15_at (x0 : T128x128x100) (x2 : T400x1024) (x3 : T1024) (x4 : T1024x1024) (x5 : T1024)
    (x6 : T1024x1) (x7 : T1) (r : Fin 4096) :
    val_main_v15 (F := Ideal) x0 x2 x3 x4 x5 x6 x7 (ix2 r 0)
      = trajRow (features x0) x2 (asRow x3) x4 (asRow x5) (colAsRow x6) (asCell x7) r := by
  rw [val_main_v15_apply, val_main_v12_apply, val_main_v14_apply, val_main_v13_apply]
  have e1 : ∀ k : Fin 1024, lidx_main_v12 (ix2 r 0) k = ix2 r k := fun k =>
    funext fun a => by match a with | ⟨0, _⟩ => rfl | ⟨1, _⟩ => rfl
  have e2 : ∀ k : Fin 1024, ridx_main_v12 (ix2 r 0) k = ix2 k 0 := fun k =>
    funext fun a => by match a with | ⟨0, _⟩ => rfl | ⟨1, _⟩ => rfl
  have e3 : idx_main_v13 (idx_main_v14 (ix2 r 0)) = ix1 0 :=
    funext fun a => by match a with | ⟨0, _⟩ => rfl
  simp only [e1, e2, e3, v11_at, v6_at]
  rfl

/-- The summed trajectory energy of entry `b`: the reference's sum over the entry's 32 rows, from zero. -/
theorem v18_at (x0 : T128x128x100) (x2 : T400x1024) (x3 : T1024) (x4 : T1024x1024) (x5 : T1024)
    (x6 : T1024x1) (x7 : T1) (b : Fin 128) :
    val_main_v18 (F := Ideal) x0 x2 x3 x4 x5 x6 x7 (ix2 b 0)
      = trajEnergy x0 x2 x3 x4 x5 x6 x7 (ix3 b 0 0) := by
  rw [val_main_v18_apply, val_main_v17_apply, val_main_cst_apply]
  have e1 : ∀ n : Fin 32, idx_main_v16 (idx_main_v17 (idx_main_v18 (ix2 b 0)) n) = ix2 (rowOf b n) 0 := fun n =>
    funext fun a => by
      match a with
      | ⟨0, _⟩ => exact Fin.ext (Nat.div_one _)
      | ⟨1, _⟩ => rfl
  simp only [val_main_v16_apply, e1, v15_at]
  rw [show FloatOps.ofBits (F := Ideal) .f32 0x00000000#32 = (0 : EReal) from Ideal.ofBits_zero_f32, zero_add]
  rfl

end Cert.ReferenceIdeal.RefScore

end
-- ==== Proof.RefScorePair.lean ====
/-
  The interaction branch of the reference, read pair by pair.

  For every ordered pair (i, j) of agents of an entry b the reference lays the feature row of agent i (400
  numbers, as 4 x 100) and the feature row of agent j side by side (8 x 100), and flattens the result to
  131072 joined rows of 800 numbers: joined row (32 b + i) 32 + j holds, at positions 0..399, feature row
  32 b + i and, at positions 400..799, feature row 32 b + j. The first dense layer's sum over the 800
  positions therefore splits into the first 400 weight rows against agent i plus the last 400 against agent
  j: the two half-layers of the specification. The other two layers, the reshaping of the 131072 energies to
  128 x 32 x 32, the product with the edge weights and the sum over both agent axes from zero are then read
  at an index as they stand.
-/
import proofs.«163290_j86011015070455_2_alg».proof.Proof.Spec
import proofs.«163290_j86011015070455_2_alg».proof.Proof.Gen.ReferenceIdeal.Read
import proofs.«163290_j86011015070455_2_alg».proof.Proof.RefScoreLaws
import proofs.«163290_j86011015070455_2_alg».proof.Proof.RefScoreTraj

noncomputable section

open scoped BigOperators

namespace Cert.ReferenceIdeal.RefScore

open Cert.ReferenceIdeal Cert.ReferenceIdeal.Gen Cert.ReferenceIdeal.Read Cert.Energy
open Idealize.ShloMosaic Idealize.ShloMosaic.ValueIdx

/-- The joined row of the ordered pair `(i, j)` of entry `b`, among the 131072. -/
def pairRow (b : Fin 128) (i j : Fin 32) : Fin 131072 :=
  ⟨(b.val * 32 + i.val) * 32 + j.val, by have := b.isLt; have := i.isLt; have := j.isLt; omega⟩

/-- Element number `n` of the 128 x 128 x 100 argument in row-major order. -/
def flat (x0 : T128x128x100) (n : Nat) (hn : n < 1638400) : EReal :=
  x0 (ix3 (⟨n / 12800, by omega⟩ : Fin 128) (⟨n / 100 % 128, by omega⟩ : Fin 128) (⟨n % 100, by omega⟩ : Fin 100))

theorem flat_congr (x0 : T128x128x100) {n m : Nat} (hn : n < 1638400) (hm : m < 1638400) (h : n = m) :
    flat x0 n hn = flat x0 m hm := by
  subst h; rfl

/-- Feature row `r`, position `k` is element number 400 r + k. -/
theorem features_flat (x0 : T128x128x100) (r : Fin 4096) (k : Fin 400) :
    features x0 (ix2 r k) = flat x0 (r.val * 400 + k.val) (by have := r.isLt; have := k.isLt; omega) := rfl

/-- The argument seen as 128 x 32 x 4 x 100 keeps the row-major order. -/
theorem v0_flat (x0 : T128x128x100) (a : Fin 128) (n : Fin 32) (c : Fin 4) (d : Fin 100) :
    val_main_v0 (F := Ideal) x0 (ix4 a n c d)
      = flat x0 (((a.val * 32 + n.val) * 4 + c.val) * 100 + d.val)
          (by have := a.isLt; have := n.isLt; have := c.isLt; have := d.isLt; omega) := by
  rw [val_main_v0_apply]
  refine congrArg x0 ?_
  funext e
  match e with
  | ⟨0, _⟩ => rfl
  | ⟨1, _⟩ => rfl
  | ⟨2, _⟩ => rfl

/-- The first 400 positions of the joined row of `(i, j)` are the feature row of agent `i`. -/
theorem v24_left (x0 : T128x128x100) (b : Fin 128) (i j : Fin 32) (k : Fin 400) :
    val_main_v24 (F := Ideal) x0 (ix2 (pairRow b i j) (⟨k.val, by omega⟩ : Fin 800))
      = features x0 (ix2 (rowOf b i) k) := by
  have hb := b.isLt; have hi := i.isLt; have hj := j.isLt; have hk := k.isLt
  rw [val_main_v24_apply]
  unfold val_main_v23
  refine (concatenate_pair_apply_left (t := S128x32x32x8x100) (s₁ := S128x32x32x4x100) (s₂ := S128x32x32x4x100)
    (3 : Fin 5) (val_main_v20 (F := Ideal) x0) (val_main_v22 (F := Ideal) x0)
    concatenates_S128x32x32x4x100_S128x32x32x4x100_S128x32x32x8x100_d3 _ rfl
    (ix5 b i j (⟨k.val / 100, by omega⟩ : Fin 4) (⟨k.val % 100, by omega⟩ : Fin 100)) ?_).trans ?_
  · intro c
    match c with
    | ⟨0, _⟩ => show b.val = (((b.val * 32 + i.val) * 32 + j.val) * 800 + k.val) / 819200; omega
    | ⟨1, _⟩ => show i.val = (((b.val * 32 + i.val) * 32 + j.val) * 800 + k.val) / 25600 % 32; omega
    | ⟨2, _⟩ => show j.val = (((b.val * 32 + i.val) * 32 + j.val) * 800 + k.val) / 800 % 32; omega
    | ⟨3, _⟩ => show k.val / 100 = (((b.val * 32 + i.val) * 32 + j.val) * 800 + k.val) / 100 % 8; omega
    | ⟨4, _⟩ => show k.val % 100 = (((b.val * 32 + i.val) * 32 + j.val) * 800 + k.val) % 100; omega
  · rw [val_main_v20_apply, val_main_v19_apply]
    have e : idx_main_v19 (idx_main_v20 (ix5 b i j (⟨k.val / 100, by omega⟩ : Fin 4) (⟨k.val % 100, by omega⟩ : Fin 100)))
        = ix4 b i (⟨k.val / 100, by omega⟩ : Fin 4) (⟨k.val % 100, by omega⟩ : Fin 100) :=
      funext fun a => by match a with | ⟨0, _⟩ => rfl | ⟨1, _⟩ => rfl | ⟨2, _⟩ => rfl | ⟨3, _⟩ => rfl
    rw [e, v0_flat, features_flat]
    exact flat_congr x0 _ _ (by
      show ((b.val * 32 + i.val) * 4 + k.val / 100) * 100 + k.val % 100 = (b.val * 32 + i.val) * 400 + k.val
      omega)

/-- The last 400 positions of the joined row of `(i, j)` are the feature row of agent `j`. -/
theorem v24_right (x0 : T128x128x100) (b : Fin 128) (i j : Fin 32) (k : Fin 400) :
    val_main_v24 (F := Ideal) x0 (ix2 (pairRow b i j) (⟨400 + k.val, by omega⟩ : Fin 800))
      = features x0 (ix2 (rowOf b j) k) := by
  have hb := b.isLt; have hi := i.isLt; have hj := j.isLt; have hk := k.isLt
  rw [val_main_v24_apply]
  unfold val_main_v23
  refine (concatenate_pair_apply_right (t := S128x32x32x8x100) (s₁ := S128x32x32x4x100) (s₂ := S128x32x32x4x100)
    (3 : Fin 5) (val_main_v20 (F := Ideal) x0) (val_main_v22 (F := Ideal) x0)
    concatenates_S128x32x32x4x100_S128x32x32x4x100_S128x32x32x8x100_d3 _ rfl rfl
    (ix5 b i j (⟨k.val / 100, by omega⟩ : Fin 4) (⟨k.val % 100, by omega⟩ : Fin 100)) ?_ ?_).trans ?_
  · intro c
    match c with
    | ⟨0, _⟩ => intro _; show b.val = (((b.val * 32 + i.val) * 32 + j.val) * 800 + (400 + k.val)) / 819200; omega
    | ⟨1, _⟩ => intro _; show i.val = (((b.val * 32 + i.val) * 32 + j.val) * 800 + (400 + k.val)) / 25600 % 32; omega
    | ⟨2, _⟩ => intro _; show j.val = (((b.val * 32 + i.val) * 32 + j.val) * 800 + (400 + k.val)) / 800 % 32; omega
    | ⟨3, _⟩ => intro h; exact absurd rfl h
    | ⟨4, _⟩ => intro _; show k.val % 100 = (((b.val * 32 + i.val) * 32 + j.val) * 800 + (400 + k.val)) % 100; omega
  · show k.val / 100 + 4 = (((b.val * 32 + i.val) * 32 + j.val) * 800 + (400 + k.val)) / 100 % 8
    omega
  · rw [val_main_v22_apply, val_main_v21_apply]
    have e : idx_main_v21 (idx_main_v22 (ix5 b i j (⟨k.val / 100, by omega⟩ : Fin 4) (⟨k.val % 100, by omega⟩ : Fin 100)))
        = ix4 b j (⟨k.val / 100, by omega⟩ : Fin 4) (⟨k.val % 100, by omega⟩ : Fin 100) :=
      funext fun a => by match a with | ⟨0, _⟩ => rfl | ⟨1, _⟩ => rfl | ⟨2, _⟩ => rfl | ⟨3, _⟩ => rfl
    rw [e, v0_flat, features_flat]
    exact flat_congr x0 _ _ (by
      show ((b.val * 32 + j.val) * 4 + k.val / 100) * 100 + k.val % 100 = (b.val * 32 + j.val) * 400 + k.val
      omega)

/-- The first interaction layer on the joined row of `(i, j)`: the first agent's half-layer plus the second's. -/
theorem v25_at (x0 : T128x128x100) (x8 : T800x1024) (b : Fin 128) (i j : Fin 32) (u : Fin 1024) :
    val_main_v25 (F := Ideal) x0 x8 (ix2 (pairRow b i j) u)
      = proj (features x0) (topHalf x8) (rowOf b i) u + proj (features x0) (bottomHalf x8) (rowOf b j) u := by
  rw [val_main_v25_apply, sum_split_800]
  have e1 : ∀ k : Fin 800, lidx_main_v25 (ix2 (pairRow b i j) u) k = ix2 (pairRow b i j) k := fun k =>
    funext fun a => by match a with | ⟨0, _⟩ => rfl | ⟨1, _⟩ => rfl
  have e2 : ∀ k : Fin 800, ridx_main_v25 (ix2 (pairRow b i j) u) k = ix2 k u := fun k =>
    funext fun a => by match a with | ⟨0, _⟩ => rfl | ⟨1, _⟩ => rfl
  simp only [e1, e2, v24_left, v24_right]
  rfl

/-- The zero the third rectifier compares with. -/
theorem relu2_zero (i : S131072x1024.Idx) : val_main_call2_v0 (F := Ideal) i = 0 := by
  rw [val_main_call2_v0_apply, val_main_call2_cst_apply]
  exact Ideal.ofBits_zero_f32

/-- The zero the fourth rectifier compares with. -/
theorem relu3_zero (i : S131072x1024.Idx) : val_main_call3_v0 (F := Ideal) i = 0 := by
  rw [val_main_call3_v0_apply, val_main_call3_cst_apply]
  exact Ideal.ofBits_zero_f32

/-- First interaction layer of the pair `(i, j)` at unit `u`, rectified. -/
theorem v29_at (x0 : T128x128x100) (x8 : T800x1024) (x9 : T1024) (b : Fin 128) (i j : Fin 32) (u : Fin 1024) :
    val_main_v29 (F := Ideal) x0 x8 x9 (ix2 (pairRow b i j) u)
      = relu ((proj (features x0) (topHalf x8) (rowOf b i) u + proj (features x0) (bottomHalf x8) (rowOf b j) u)
          + asRow x9 (ix2 0 u)) := by
  rw [val_main_v29_apply, val_main_v28_apply, v25_at, val_main_v27_apply, val_main_v26_apply, relu2_zero]
  have e3 : idx_main_v26 (idx_main_v27 (ix2 (pairRow b i j) u)) = ix1 u :=
    funext fun a => by match a with | ⟨0, _⟩ => rfl
  rw [e3]
  rfl

/-- Second interaction layer of the pair at unit `v`, rectified. -/
theorem v34_at (x0 : T128x128x100) (x8 : T800x1024) (x9 : T1024) (x10 : T1024x1024) (x11 : T1024)
    (b : Fin 128) (i j : Fin 32) (v : Fin 1024) :
    val_main_v34 (F := Ideal) x0 x8 x9 x10 x11 (ix2 (pairRow b i j) v)
      = relu ((∑ u : Fin 1024, val_main_v29 (F := Ideal) x0 x8 x9 (ix2 (pairRow b i j) u) * x10 (ix2 u v))
          + asRow x11 (ix2 0 v)) := by
  rw [val_main_v34_apply, val_main_v33_apply, val_main_v30_apply, val_main_v32_apply, val_main_v31_apply,
    relu3_zero]
  have e1 : ∀ k : Fin 1024, lidx_main_v30 (ix2 (pairRow b i j) v) k = ix2 (pairRow b i j) k := fun k =>
    funext fun a => by match a with | ⟨0, _⟩ => rfl | ⟨1, _⟩ => rfl
  have e2 : ∀ k : Fin 1024, ridx_main_v30 (ix2 (pairRow b i j) v) k = ix2 k v := fun k =>
    funext fun a => by match a with | ⟨0, _⟩ => rfl | ⟨1, _⟩ => rfl
  have e3 : idx_main_v31 (idx_main_v32 (ix2 (pairRow b i j) v)) = ix1 v :=
    funext fun a => by match a with | ⟨0, _⟩ => rfl
  simp only [e1, e2, e3]
  rfl

/-- The interaction energy of the ordered pair `(i, j)` of entry `b`: the reference's third layer on the joined
    row is the specification's pair energy over the two half-layers laid out entry by entry. -/
theorem v38_at (x0 : T128x128x100) (x8 : T800x1024) (x9 : T1024) (x10 : T1024x1024) (x11 : T1024)
    (x12 : T1024x1) (x13 : T1) (b : Fin 128) (i j : Fin 32) :
    val_main_v38 (F := Ideal) x0 x8 x9 x10 x11 x12 x13 (ix2 (pairRow b i j) 0)
      = pairEnergy (byEntry (proj (features x0) (topHalf x8))) (byEntry (proj (features x0) (bottomHalf x8)))
          (asRow x9) x10 (asRow x11) (colAsRow x12) (asCell x13) b i j := by
  rw [val_main_v38_apply, val_main_v35_apply, val_main_v37_apply, val_main_v36_apply]
  have e1 : ∀ k : Fin 1024, lidx_main_v35 (ix2 (pairRow b i j) 0) k = ix2 (pairRow b i j) k := fun k =>
    funext fun a => by match a with | ⟨0, _⟩ => rfl | ⟨1, _⟩ => rfl
  have e2 : ∀ k : Fin 1024, ridx_main_v35 (ix2 (pairRow b i j) 0) k = ix2 k 0 := fun k =>
    funext fun a => by match a with | ⟨0, _⟩ => rfl | ⟨1, _⟩ => rfl
  have e3 : idx_main_v36 (idx_main_v37 (ix2 (pairRow b i j) 0)) = ix1 0 :=
    funext fun a => by match a with | ⟨0, _⟩ => rfl
  simp only [e1, e2, e3, v34_at, v29_at]
  rfl

/-- The edge-weighted interaction energy of the pair, in the 128 x 32 x 32 layout. -/
theorem v40_at (x0 : T128x128x100) (x1 : T128x32x32) (x8 : T800x1024) (x9 : T1024) (x10 : T1024x1024) (x11 : T1024)
    (x12 : T1024x1) (x13 : T1) (b : Fin 128) (i j : Fin 32) :
    val_main_v40 (F := Ideal) x0 x1 x8 x9 x10 x11 x12 x13 (ix3 b i j)
      = x1 (ix3 b i j) * pairEnergy (byEntry (proj (features x0) (topHalf x8)))
          (byEntry (proj (features x0) (bottomHalf x8))) (asRow x9) x10 (asRow x11) (colAsRow x12) (asCell x13) b i j := by
  rw [val_main_v40_apply, val_main_v39_apply]
  have e : idx_main_v39 (ix3 b i j) = ix2 (pairRow b i j) 0 :=
    funext fun a => by
      match a with
      | ⟨0, _⟩ => exact Fin.ext (Nat.div_one _)
      | ⟨1, _⟩ => rfl
  rw [e, v38_at]
  rfl

/-- The interaction part of entry `b`'s score: the reference's sum over both agent axes, from zero, is the
    iterated sum over the first and the second agent of edge weight times pair energy. -/
theorem v42_at (x0 : T128x128x100) (x1 : T128x32x32) (x8 : T800x1024) (x9 : T1024) (x10 : T1024x1024) (x11 : T1024)
    (x12 : T1024x1) (x13 : T1) (b : Fin 128) :
    val_main_v42 (F := Ideal) x0 x1 x8 x9 x10 x11 x12 x13 (ix2 b 0)
      = ∑ i : Fin 32, ∑ j : Fin 32, x1 (ix3 b i j) * pairEnergy (byEntry (proj (features x0) (topHalf x8)))
          (byEntry (proj (features x0) (bottomHalf x8))) (asRow x9) x10 (asRow x11) (colAsRow x12) (asCell x13) b i j := by
  rw [val_main_v42_apply]
  have e : idx_main_v42 (ix2 b 0) = ix1 b := funext fun a => by match a with | ⟨0, _⟩ => rfl
  rw [e]
  unfold val_main_v41
  simp only [Host.reduceAdd, Ideal.hostReduceAdd_def]
  refine (hostReduceAdd_pairs _ _ _ b).trans ?_
  rw [val_main_cst_0_apply,
    show FloatOps.ofBits (F := Ideal) .f32 0x00000000#32 = (0 : EReal) from Ideal.ofBits_zero_f32, zero_add]
  simp only [v40_at]

end Cert.ReferenceIdeal.RefScore

end
-- ==== Proof.RefScore.lean ====
/-
  The reference is the specification.

  The reference's result at entry b is the sum of two parts, each read in a module of its own: the entry's
  summed trajectory energy (the sum of its 32 rows' perceptron energies) and the edge-weighted sum of its
  1024 ordered pairs' interaction energies. Their sum is, term for term, the specification's score of the
  entry, for every value of the fourteen argument arrays; nothing is assumed of them.
-/
import proofs.«163290_j86011015070455_2_alg».proof.Proof.Spec
import proofs.«163290_j86011015070455_2_alg».proof.Proof.Gen.ReferenceIdeal.Read
import proofs.«163290_j86011015070455_2_alg».proof.Proof.RefScoreTraj
import proofs.«163290_j86011015070455_2_alg».proof.Proof.RefScorePair

noncomputable section

open scoped BigOperators

namespace Cert.ReferenceIdeal.RefScore

open Cert.ReferenceIdeal Cert.ReferenceIdeal.Gen Cert.ReferenceIdeal.Read Cert.Energy
open Idealize.ShloMosaic Idealize.ShloMosaic.ValueIdx

/-- The reference's result, as a function of its fourteen argument arrays, is the specification's score. -/
theorem ref_is_score
    (x0 : (⟨S128x128x100, .f32⟩ : BufTy).Contents (Elt Ideal)) (x1 : (⟨S128x32x32, .f32⟩ : BufTy).Contents (Elt Ideal))
    (x2 : (⟨S400x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (x8 : (⟨S800x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (x12 : (⟨S1024x1, .f32⟩ : BufTy).Contents (Elt Ideal)) (x13 : (⟨S1, .f32⟩ : BufTy).Contents (Elt Ideal)) :
    val_main_v43 (F := Ideal) x0 x1 x2 x3 x4 x5 x6 x7 x8 x9 x10 x11 x12 x13
      = score x0 x1 x2 x3 x4 x5 x6 x7 x8 x9 x10 x11 x12 x13 := by
  funext q
  have hq : (q 1).val < 1 := (q 1).isLt
  have h1 : q 1 = (0 : Fin 1) := Fin.ext (by show (q 1).val = 0; omega)
  obtain ⟨b, rfl⟩ : ∃ b : Fin 128, q = ix2 b (0 : Fin 1) :=
    ⟨q 0, by have e := eq_ix2 q; rw [h1] at e; exact e⟩
  rw [val_main_v43_apply, v18_at, v42_at]
  rfl

end Cert.ReferenceIdeal.RefScore

end
-- ==== Proof.lean ====
/-
  The five claims of the certificate.

  The kernel scores 128 scenes of 32 agents: a three-layer perceptron gives every agent's trajectory energy, a second
  one every ordered pair's interaction energy, and a scene's score is the sum of its trajectory energies plus the
  edge-weighted sum of its interaction energies (`Cert.Energy.score`, Proof/Spec.lean). The kernel computes it in two
  pallas regions; the reference in one straight line of array operations on the joined pair tensor.

  * The three frames: every weakly fair execution terminates without a fault and leaves the arguments as launched.
    For the two kernel programs this is the generated frame; for the reference it is its generated run with the
    result forgotten.
  * `preserves`: the idealization rewrote no operation, so there is nothing to state.
  * `algebraic`: at the ideal instance both programs end with the result array equal to `score` of the arguments.
    Kernel side: the whole-program run names the result buffer at the last boundary of the buffer fold
    (Proof/WholeRun.lean), and that boundary is `score` (Proof/KernelScore.lean, from the two regions' output arrays
    and the host operations around them). Reference side: its run's result term is `score` (Proof/RefScore.lean).
    The two sides differ only in how sums are arranged: the first interaction layer over the joined 800 features is
    the sum of two 400-feature halves, the second layer's sum over 1024 units is taken in four runs of 256 from zero,
    the sum over pairs is taken agent by agent, and the width-one layers are a product-and-sum instead of a matrix
    product. These are regroupings of finite sums of extended reals, so no finiteness of the inputs is used.
-/
import proofs.«163290_j86011015070455_2_alg».proof.Defs
import proofs.«163290_j86011015070455_2_alg».proof.Proof.Gen.Kernel
import proofs.«163290_j86011015070455_2_alg».proof.Proof.Gen.Kernel.Skeleton
import proofs.«163290_j86011015070455_2_alg».proof.Proof.Gen.Kernel.Launch
import proofs.«163290_j86011015070455_2_alg».proof.Proof.Gen.Kernel.Points
import proofs.«163290_j86011015070455_2_alg».proof.Proof.Gen.Kernel.Frame
import proofs.«163290_j86011015070455_2_alg».proof.Proof.Gen.KernelIdeal
import proofs.«163290_j86011015070455_2_alg».proof.Proof.Gen.KernelIdeal.Skeleton
import proofs.«163290_j86011015070455_2_alg».proof.Proof.Gen.KernelIdeal.Launch
import proofs.«163290_j86011015070455_2_alg».proof.Proof.Gen.KernelIdeal.Points
import proofs.«163290_j86011015070455_2_alg».proof.Proof.Gen.KernelIdeal.Frame
import proofs.«163290_j86011015070455_2_alg».proof.Proof.Gen.ReferenceIdeal
import proofs.«163290_j86011015070455_2_alg».proof.Proof.Gen.ReferenceIdeal.Run
import proofs.«163290_j86011015070455_2_alg».proof.Proof.Gen.ReferenceIdeal.Read
import proofs.«163290_j86011015070455_2_alg».proof.Proof.Gen.Pre_finite_inputs
import proofs.«163290_j86011015070455_2_alg».proof.Proof.KernelScore
import proofs.«163290_j86011015070455_2_alg».proof.Proof.RefScore
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · -- the reference's frame: its run, the result forgotten
    exact (θ_run Cert.ReferenceIdeal.defs _ _).mono (fun _ h c => (h c).2) (Cert.ReferenceIdeal.Value.run (F := Ideal) m ρ)
  · -- both runs end at the score of the (agreeing) arguments
    intro m ρ m' ρ' _ hagree
    refine ⟨fun c => Cert.Energy.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
    · exact (θ_run Cert.KernelIdeal.defs _ _).mono
        (fun r h c => ⟨(h c).1.trans (Cert.KernelIdeal.KernelScore.result_is_score m ρ c), (h c).2⟩)
        (Cert.KernelIdeal.WholeRun.run_result (F := Ideal) m ρ)
    · refine (θ_run Cert.ReferenceIdeal.defs _ _).mono (fun r h c => ⟨?_, (h c).2⟩)
        (Cert.ReferenceIdeal.Value.run (F := Ideal) m' ρ')
      obtain ⟨h0, h1, h2, h3, h4, h5, h6, h7, h8, h9, h10, h11, h12, h13⟩ := hagree c
      refine (h c).1.trans ?_
      refine (Cert.ReferenceIdeal.Read.val_main_v43_eq (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))).trans ?_
      rw [Cert.ReferenceIdeal.RefScore.ref_is_score, h0, h1, h2, h3, h4, h5, h6, h7, h8, h9, h10, h11, h12, h13]⟩

end Cert.Proof

end
